-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192 : Shape := ⟨2, ![4, 8192]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x8192 : S_.BroadcastsInDim S4x8192 (![] : Fin 0 → Fin S4x8192.rank)
  reducesTo_S4x8192_S_d0_1 : S4x8192.ReducesTo [0, 1] S_

variable [Facts]

def fn {F : FTy → Type} [FloatOps F] (main_arg0 : IVec S4x8192 32) (main_arg1 : FVec F S8192x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 32 := constantI S_ 32 0#32
  let main_v4 : IVec S4x8192 32 := broadcastInDim S4x8192 ![] bcast_S_S4x8192 main_c_0
  let main_v5 : IVec S4x8192 1 := cmpi .sge main_arg0 main_v4
  let main_c_1 : IVec S_ 32 := constantI S_ 32 8191#32
  let main_v6 : IVec S4x8192 32 := broadcastInDim S4x8192 ![] bcast_S_S4x8192 main_c_1
  let main_v7 : IVec S4x8192 1 := cmpi .sle main_arg0 main_v6
  let main_v8 : IVec S4x8192 1 := andi main_v5 main_v7
  let main_c_2 : IVec S_ 1 := constantI S_ 1 1#1
  let main_v9 : IVec S_ 1 := (fun x v => Host.reduce IntOp.andi x v reducesTo_S4x8192_S_d0_1 h_S_) main_v8 main_c_2
  let main_v10 : IVec S_ 1 := andi main_v3 main_v9
  main_v10
-- ==== Kernel.lean ====
abbrev S4x8192 : Shape := ⟨2, ![4, 8192]⟩
abbrev S8192x1024 : Shape := ⟨2, ![8192, 1024]⟩
abbrev S7x16x1024 : Shape := ⟨3, ![7, 16, 1024]⟩
abbrev S_ : Shape := ⟨0, ![]⟩
abbrev S1x16x1024 : Shape := ⟨3, ![1, 16, 1024]⟩
abbrev S16x1024 : Shape := ⟨2, ![16, 1024]⟩

abbrev nBuf : Table → Nat
  | .hbm => 3
  | .local .scVector .vmem => 1
  | _ => 0

abbrev bufTy : (tb : Table) → Fin (nBuf tb) → BufTy
  | .hbm, ⟨0, _⟩ => ⟨S4x8192, .i32⟩
  | .hbm, ⟨1, _⟩ => ⟨S8192x1024, .f32⟩
  | .hbm, ⟨2, _⟩ => ⟨S8192x1024, .f32⟩
  | .local .scVector .vmem, ⟨0, _⟩ => ⟨S7x16x1024, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_3 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S7x16x1024_S1x16x1024_0_0_0 : ∀ a, (![0, 0, 0] : Fin 3 → Nat) a + S1x16x1024.size a ≤ S7x16x1024.size a
  squeezes_S1x16x1024_S16x1024 : S1x16x1024.Squeezes S16x1024
  inb_S7x16x1024_S1x16x1024_1_0_0 : ∀ a, (![1, 0, 0] : Fin 3 → Nat) a + S1x16x1024.size a ≤ S7x16x1024.size a
  inb_S7x16x1024_S1x16x1024_2_0_0 : ∀ a, (![2, 0, 0] : Fin 3 → Nat) a + S1x16x1024.size a ≤ S7x16x1024.size a
  inb_S7x16x1024_S1x16x1024_3_0_0 : ∀ a, (![3, 0, 0] : Fin 3 → Nat) a + S1x16x1024.size a ≤ S7x16x1024.size a
  inb_S7x16x1024_S1x16x1024_4_0_0 : ∀ a, (![4, 0, 0] : Fin 3 → Nat) a + S1x16x1024.size a ≤ S7x16x1024.size a
  inb_S7x16x1024_S1x16x1024_5_0_0 : ∀ a, (![5, 0, 0] : Fin 3 → Nat) a + S1x16x1024.size a ≤ S7x16x1024.size a
  inb_S7x16x1024_S1x16x1024_6_0_0 : ∀ a, (![6, 0, 0] : Fin 3 → Nat) a + S1x16x1024.size a ≤ S7x16x1024.size a
  hcc0_scratch1 : 0 + S_.numel ≤ 14
  hcc0_scratch2 : 1 + S_.numel ≤ 14
  hcc0_scratch3 : 2 + S_.numel ≤ 14
  hcc0_scratch4 : 3 + S_.numel ≤ 14
  hcc0_scratch5 : 4 + S_.numel ≤ 14
  hcc0_scratch6 : 5 + S_.numel ≤ 14
  hcc0_scratch7 : 6 + S_.numel ≤ 14
  hcc0_scratch8 : 7 + S_.numel ≤ 14
  hcc0_scratch9 : 8 + S_.numel ≤ 14
  hcc0_scratch10 : 9 + S_.numel ≤ 14
  hcc0_scratch11 : 10 + S_.numel ≤ 14
  hcc0_scratch12 : 11 + S_.numel ≤ 14
  hcc0_scratch13 : 12 + S_.numel ≤ 14
  hcc0_scratch14 : 13 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 16), ∀ a, (k0_off1 i (BitVec.ofNat 32 (16 * r.val))) a + S16x1024.size a ≤ S8192x1024.size a

variable [Facts₀]

abbrev cc0_scratch1 : DmaSems sig S_ := SemArray.consecutive 0 S_ hcc0_scratch1
abbrev cc0_scratch2 : DmaSems sig S_ := SemArray.consecutive 1 S_ hcc0_scratch2
abbrev cc0_scratch3 : DmaSems sig S_ := SemArray.consecutive 2 S_ hcc0_scratch3
abbrev cc0_scratch4 : DmaSems sig S_ := SemArray.consecutive 3 S_ hcc0_scratch4
abbrev cc0_scratch5 : DmaSems sig S_ := SemArray.consecutive 4 S_ hcc0_scratch5
abbrev cc0_scratch6 : DmaSems sig S_ := SemArray.consecutive 5 S_ hcc0_scratch6
abbrev cc0_scratch7 : DmaSems sig S_ := SemArray.consecutive 6 S_ hcc0_scratch7
abbrev cc0_scratch8 : DmaSems sig S_ := SemArray.consecutive 7 S_ hcc0_scratch8
abbrev cc0_scratch9 : DmaSems sig S_ := SemArray.consecutive 8 S_ hcc0_scratch9
abbrev cc0_scratch10 : DmaSems sig S_ := SemArray.consecutive 9 S_ hcc0_scratch10
abbrev cc0_scratch11 : DmaSems sig S_ := SemArray.consecutive 10 S_ hcc0_scratch11
abbrev cc0_scratch12 : DmaSems sig S_ := SemArray.consecutive 11 S_ hcc0_scratch12
abbrev cc0_scratch13 : DmaSems sig S_ := SemArray.consecutive 12 S_ hcc0_scratch13
abbrev cc0_scratch14 : DmaSems sig S_ := SemArray.consecutive 13 S_ hcc0_scratch14

class Facts : Prop extends Facts₀ where

variable [Facts]
-- ==== ReferenceIdeal.lean ====
abbrev S4x8192 : Shape := ⟨2, ![4, 8192]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  gather_S8192x1024_S8192x1_S8192x1024_1_0_n_n_0_1_11024_wf : GatherDims.WF S8192x1024 S8192x1 S8192x1024 [1] [0] [] [0] [] 1 ![1, 1024]

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.BitsSetup.lean ====
/-
  The copy kernel's launch set-up. Thirty-two vector subcores (two SparseCores of sixteen) each move their own 256 rows of
  the table to the same rows of the result, sixteen rows at a time, through a ring of seven sixteen-row slots of their own
  vector memory. Row offset of chunk k of subcore s of SparseCore c: 512 s + 256 c + 16 k. Here: the ghost state (the
  handshakes' rounds beside the counters of the local transfers), the arrays and their pieces as the body slices them,
  the element sets of a chunk, of a subcore's sixteen chunks and of a SparseCore's sixteen subcores, and what each
  handshake carries: a SparseCore is handed its rows of the table and of the result, a subcore its own, and both come
  back with the result's rows holding the table's.
-/
import proofs.«213585_g19138374271248_cont_8to1_1565_24_alg».proof.Kernel
import Idealize.ShloMosaic.Lib.SparseCore.Launch
import Idealize.ShloMosaic.Lib.StableHlo.Run
import Idealize.ShloMosaic.Lib.Pipeline.Kit
import Idealize.ShloMosaic.Lib.Tactic
import proofs.«213585_g19138374271248_cont_8to1_1565_24_alg».proof.Proof.Gen.Kernel
import proofs.«213585_g19138374271248_cont_8to1_1565_24_alg».proof.Proof.Gen.Kernel.Skeleton

noncomputable section

namespace Cert.Proof.BitsCopy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The index array (never touched), the table and the result, as locations of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev tV : Memref sig .scVector .hbm S8192x1024 .f32 := Memref.whole main_arg1_scv
abbrev oV : Memref sig .scVector .hbm S8192x1024 .f32 := Memref.whole main_v0_scv
abbrev rV : Memref sig .scVector .vmem S7x16x1024 .f32 := Memref.whole cc0_scratch0

/-- Chunk `k` (sixteen rows) of the table and of the result as the subcore at `L` slices them, and slot `b` of its ring. -/
abbrev tC0 (L : grid0.Coords) : Memref sig .scVector .hbm S16x1024 .f32 := (tV).slice (Rect.unit (s := S8192x1024) (k0_off1 L 0#32) S16x1024.size (k0_off1_inb L 0)) (fun _ => rfl)
abbrev tC1 (L : grid0.Coords) : Memref sig .scVector .hbm S16x1024 .f32 := (tV).slice (Rect.unit (s := S8192x1024) (k0_off1 L 16#32) S16x1024.size (k0_off1_inb L 1)) (fun _ => rfl)
abbrev tC2 (L : grid0.Coords) : Memref sig .scVector .hbm S16x1024 .f32 := (tV).slice (Rect.unit (s := S8192x1024) (k0_off1 L 32#32) S16x1024.size (k0_off1_inb L 2)) (fun _ => rfl)
abbrev tC3 (L : grid0.Coords) : Memref sig .scVector .hbm S16x1024 .f32 := (tV).slice (Rect.unit (s := S8192x1024) (k0_off1 L 48#32) S16x1024.size (k0_off1_inb L 3)) (fun _ => rfl)
abbrev tC4 (L : grid0.Coords) : Memref sig .scVector .hbm S16x1024 .f32 := (tV).slice (Rect.unit (s := S8192x1024) (k0_off1 L 64#32) S16x1024.size (k0_off1_inb L 4)) (fun _ => rfl)
abbrev tC5 (L : grid0.Coords) : Memref sig .scVector .hbm S16x1024 .f32 := (tV).slice (Rect.unit (s := S8192x1024) (k0_off1 L 80#32) S16x1024.size (k0_off1_inb L 5)) (fun _ => rfl)
abbrev tC6 (L : grid0.Coords) : Memref sig .scVector .hbm S16x1024 .f32 := (tV).slice (Rect.unit (s := S8192x1024) (k0_off1 L 96#32) S16x1024.size (k0_off1_inb L 6)) (fun _ => rfl)
abbrev tC7 (L : grid0.Coords) : Memref sig .scVector .hbm S16x1024 .f32 := (tV).slice (Rect.unit (s := S8192x1024) (k0_off1 L 112#32) S16x1024.size (k0_off1_inb L 7)) (fun _ => rfl)
abbrev tC8 (L : grid0.Coords) : Memref sig .scVector .hbm S16x1024 .f32 := (tV).slice (Rect.unit (s := S8192x1024) (k0_off1 L 128#32) S16x1024.size (k0_off1_inb L 8)) (fun _ => rfl)
abbrev tC9 (L : grid0.Coords) : Memref sig .scVector .hbm S16x1024 .f32 := (tV).slice (Rect.unit (s := S8192x1024) (k0_off1 L 144#32) S16x1024.size (k0_off1_inb L 9)) (fun _ => rfl)
abbrev tC10 (L : grid0.Coords) : Memref sig .scVector .hbm S16x1024 .f32 := (tV).slice (Rect.unit (s := S8192x1024) (k0_off1 L 160#32) S16x1024.size (k0_off1_inb L 10)) (fun _ => rfl)
abbrev tC11 (L : grid0.Coords) : Memref sig .scVector .hbm S16x1024 .f32 := (tV).slice (Rect.unit (s := S8192x1024) (k0_off1 L 176#32) S16x1024.size (k0_off1_inb L 11)) (fun _ => rfl)
abbrev tC12 (L : grid0.Coords) : Memref sig .scVector .hbm S16x1024 .f32 := (tV).slice (Rect.unit (s := S8192x1024) (k0_off1 L 192#32) S16x1024.size (k0_off1_inb L 12)) (fun _ => rfl)
abbrev tC13 (L : grid0.Coords) : Memref sig .scVector .hbm S16x1024 .f32 := (tV).slice (Rect.unit (s := S8192x1024) (k0_off1 L 208#32) S16x1024.size (k0_off1_inb L 13)) (fun _ => rfl)
abbrev tC14 (L : grid0.Coords) : Memref sig .scVector .hbm S16x1024 .f32 := (tV).slice (Rect.unit (s := S8192x1024) (k0_off1 L 224#32) S16x1024.size (k0_off1_inb L 14)) (fun _ => rfl)
abbrev tC15 (L : grid0.Coords) : Memref sig .scVector .hbm S16x1024 .f32 := (tV).slice (Rect.unit (s := S8192x1024) (k0_off1 L 240#32) S16x1024.size (k0_off1_inb L 15)) (fun _ => rfl)
abbrev oC0 (L : grid0.Coords) : Memref sig .scVector .hbm S16x1024 .f32 := (oV).slice (Rect.unit (s := S8192x1024) (k0_off1 L 0#32) S16x1024.size (k0_off1_inb L 0)) (fun _ => rfl)
abbrev oC1 (L : grid0.Coords) : Memref sig .scVector .hbm S16x1024 .f32 := (oV).slice (Rect.unit (s := S8192x1024) (k0_off1 L 16#32) S16x1024.size (k0_off1_inb L 1)) (fun _ => rfl)
abbrev oC2 (L : grid0.Coords) : Memref sig .scVector .hbm S16x1024 .f32 := (oV).slice (Rect.unit (s := S8192x1024) (k0_off1 L 32#32) S16x1024.size (k0_off1_inb L 2)) (fun _ => rfl)
abbrev oC3 (L : grid0.Coords) : Memref sig .scVector .hbm S16x1024 .f32 := (oV).slice (Rect.unit (s := S8192x1024) (k0_off1 L 48#32) S16x1024.size (k0_off1_inb L 3)) (fun _ => rfl)
abbrev oC4 (L : grid0.Coords) : Memref sig .scVector .hbm S16x1024 .f32 := (oV).slice (Rect.unit (s := S8192x1024) (k0_off1 L 64#32) S16x1024.size (k0_off1_inb L 4)) (fun _ => rfl)
abbrev oC5 (L : grid0.Coords) : Memref sig .scVector .hbm S16x1024 .f32 := (oV).slice (Rect.unit (s := S8192x1024) (k0_off1 L 80#32) S16x1024.size (k0_off1_inb L 5)) (fun _ => rfl)
abbrev oC6 (L : grid0.Coords) : Memref sig .scVector .hbm S16x1024 .f32 := (oV).slice (Rect.unit (s := S8192x1024) (k0_off1 L 96#32) S16x1024.size (k0_off1_inb L 6)) (fun _ => rfl)
abbrev oC7 (L : grid0.Coords) : Memref sig .scVector .hbm S16x1024 .f32 := (oV).slice (Rect.unit (s := S8192x1024) (k0_off1 L 112#32) S16x1024.size (k0_off1_inb L 7)) (fun _ => rfl)
abbrev oC8 (L : grid0.Coords) : Memref sig .scVector .hbm S16x1024 .f32 := (oV).slice (Rect.unit (s := S8192x1024) (k0_off1 L 128#32) S16x1024.size (k0_off1_inb L 8)) (fun _ => rfl)
abbrev oC9 (L : grid0.Coords) : Memref sig .scVector .hbm S16x1024 .f32 := (oV).slice (Rect.unit (s := S8192x1024) (k0_off1 L 144#32) S16x1024.size (k0_off1_inb L 9)) (fun _ => rfl)
abbrev oC10 (L : grid0.Coords) : Memref sig .scVector .hbm S16x1024 .f32 := (oV).slice (Rect.unit (s := S8192x1024) (k0_off1 L 160#32) S16x1024.size (k0_off1_inb L 10)) (fun _ => rfl)
abbrev oC11 (L : grid0.Coords) : Memref sig .scVector .hbm S16x1024 .f32 := (oV).slice (Rect.unit (s := S8192x1024) (k0_off1 L 176#32) S16x1024.size (k0_off1_inb L 11)) (fun _ => rfl)
abbrev oC12 (L : grid0.Coords) : Memref sig .scVector .hbm S16x1024 .f32 := (oV).slice (Rect.unit (s := S8192x1024) (k0_off1 L 192#32) S16x1024.size (k0_off1_inb L 12)) (fun _ => rfl)
abbrev oC13 (L : grid0.Coords) : Memref sig .scVector .hbm S16x1024 .f32 := (oV).slice (Rect.unit (s := S8192x1024) (k0_off1 L 208#32) S16x1024.size (k0_off1_inb L 13)) (fun _ => rfl)
abbrev oC14 (L : grid0.Coords) : Memref sig .scVector .hbm S16x1024 .f32 := (oV).slice (Rect.unit (s := S8192x1024) (k0_off1 L 224#32) S16x1024.size (k0_off1_inb L 14)) (fun _ => rfl)
abbrev oC15 (L : grid0.Coords) : Memref sig .scVector .hbm S16x1024 .f32 := (oV).slice (Rect.unit (s := S8192x1024) (k0_off1 L 240#32) S16x1024.size (k0_off1_inb L 15)) (fun _ => rfl)
abbrev sl0 : Memref sig .scVector .vmem S16x1024 .f32 := ((rV).slice (Rect.unit (s := S7x16x1024) ![0, 0, 0] S1x16x1024.size inb_S7x16x1024_S1x16x1024_0_0_0) (fun _ => rfl)).squeeze S16x1024 squeezes_S1x16x1024_S16x1024
abbrev sl1 : Memref sig .scVector .vmem S16x1024 .f32 := ((rV).slice (Rect.unit (s := S7x16x1024) ![1, 0, 0] S1x16x1024.size inb_S7x16x1024_S1x16x1024_1_0_0) (fun _ => rfl)).squeeze S16x1024 squeezes_S1x16x1024_S16x1024
abbrev sl2 : Memref sig .scVector .vmem S16x1024 .f32 := ((rV).slice (Rect.unit (s := S7x16x1024) ![2, 0, 0] S1x16x1024.size inb_S7x16x1024_S1x16x1024_2_0_0) (fun _ => rfl)).squeeze S16x1024 squeezes_S1x16x1024_S16x1024
abbrev sl3 : Memref sig .scVector .vmem S16x1024 .f32 := ((rV).slice (Rect.unit (s := S7x16x1024) ![3, 0, 0] S1x16x1024.size inb_S7x16x1024_S1x16x1024_3_0_0) (fun _ => rfl)).squeeze S16x1024 squeezes_S1x16x1024_S16x1024
abbrev sl4 : Memref sig .scVector .vmem S16x1024 .f32 := ((rV).slice (Rect.unit (s := S7x16x1024) ![4, 0, 0] S1x16x1024.size inb_S7x16x1024_S1x16x1024_4_0_0) (fun _ => rfl)).squeeze S16x1024 squeezes_S1x16x1024_S16x1024
abbrev sl5 : Memref sig .scVector .vmem S16x1024 .f32 := ((rV).slice (Rect.unit (s := S7x16x1024) ![5, 0, 0] S1x16x1024.size inb_S7x16x1024_S1x16x1024_5_0_0) (fun _ => rfl)).squeeze S16x1024 squeezes_S1x16x1024_S16x1024
abbrev sl6 : Memref sig .scVector .vmem S16x1024 .f32 := ((rV).slice (Rect.unit (s := S7x16x1024) ![6, 0, 0] S1x16x1024.size inb_S7x16x1024_S1x16x1024_6_0_0) (fun _ => rfl)).squeeze S16x1024 squeezes_S1x16x1024_S16x1024

/-- The same chunk for a variable `k`. -/
abbrev tCh (L : grid0.Coords) (k : Fin 16) : Memref sig .scVector .hbm S16x1024 .f32 :=
  (tV).slice (Rect.unit (s := S8192x1024) (k0_off1 L (BitVec.ofNat 32 (16 * k.val))) S16x1024.size (k0_off1_inb L k)) (fun _ => rfl)

variable [FloatOps F]

/-! ## Which rows are whose

The 8192 rows are 512 chunks of sixteen. Chunk `k` of subcore `s` of SparseCore `c` is chunk `32 s + 16 c + k`:
a subcore's sixteen chunks are consecutive (256 rows), the two SparseCores' subcores interleave. -/

omit [FloatOps F] in
theorem hdiv : 512 ∣ S8192x1024.size 0 := ⟨16, rfl⟩
abbrev chunkRect (g : Fin 512) : Rect S8192x1024 := Rect.part (s := S8192x1024) (a₀ := 0) hdiv g
abbrev chunk (g : Fin 512) : Finset S8192x1024.Idx := ((tV : Memref sig .scVector .hbm S8192x1024 .f32).view.slice (chunkRect g)).set

def gIx (c : Fin 2) (s : Fin 16) (k : Fin 16) : Fin 512 := ⟨32 * s.val + 16 * c.val + k.val, by omega⟩

def tileSet (c : Fin 2) (s : Fin 16) : Finset S8192x1024.Idx := Finset.univ.biUnion fun k : Fin 16 => chunk (gIx c s k)
def coreSet (c : Fin 2) : Finset S8192x1024.Idx := Finset.univ.biUnion fun s : Fin 16 => tileSet c s

omit [FloatOps F] in
theorem chunk_eq (g : Fin 512) : chunk g = (chunkRect g).set := by
  show ((View.whole (main_arg1_scv : Ref sig .scVector)).slice (chunkRect g)).set = _
  rw [View.set_slice]; exact Finset.map_refl
omit [FloatOps F] in
theorem chunk_disjoint {g g' : Fin 512} (h : g ≠ g') : Disjoint (chunk g) (chunk g') := by
  rw [chunk_eq, chunk_eq]; exact Rect.part_disjoint hdiv h
omit [FloatOps F] in
theorem gIx_ne {c c' : Fin 2} {s s' : Fin 16} {k k' : Fin 16} (h : c ≠ c' ∨ s ≠ s' ∨ k ≠ k') : gIx c s k ≠ gIx c' s' k' := by
  intro e
  have e' : 32 * s.val + 16 * c.val + k.val = 32 * s'.val + 16 * c'.val + k'.val := congrArg Fin.val e
  have hc := c.isLt; have hc' := c'.isLt; have hk := k.isLt; have hk' := k'.isLt
  rcases h with h | h | h
  · exact h (Fin.ext (by omega))
  · exact h (Fin.ext (by omega))
  · exact h (Fin.ext (by omega))
omit [FloatOps F] in
theorem chunks_disjoint (c : Fin 2) (s : Fin 16) :
    ∀ k ∈ (Finset.univ : Finset (Fin 16)), ∀ k' ∈ (Finset.univ : Finset (Fin 16)), k ≠ k' → Disjoint (chunk (gIx c s k)) (chunk (gIx c s k')) :=
  fun _ _ _ _ h => chunk_disjoint (gIx_ne (.inr (.inr h)))
omit [FloatOps F] in
theorem tiles_disjoint (c : Fin 2) :
    ∀ s ∈ (Finset.univ : Finset (Fin 16)), ∀ s' ∈ (Finset.univ : Finset (Fin 16)), s ≠ s' → Disjoint (tileSet c s) (tileSet c s') := by
  intro s _ s' _ h
  unfold tileSet
  exact (Finset.disjoint_biUnion_left _ _ _).mpr fun k _ => (Finset.disjoint_biUnion_right _ _ _).mpr fun k' _ => chunk_disjoint (gIx_ne (.inr (.inl h)))
omit [FloatOps F] in
theorem cores_disjoint :
    ∀ c ∈ (Finset.univ : Finset (Fin 2)), ∀ c' ∈ (Finset.univ : Finset (Fin 2)), c ≠ c' → Disjoint (coreSet c) (coreSet c') := by
  intro c _ c' _ h
  unfold coreSet tileSet
  exact (Finset.disjoint_biUnion_left _ _ _).mpr fun s _ => (Finset.disjoint_biUnion_right _ _ _).mpr fun s' _ =>
    (Finset.disjoint_biUnion_left _ _ _).mpr fun k _ => (Finset.disjoint_biUnion_right _ _ _).mpr fun k' _ => chunk_disjoint (gIx_ne (.inl h))
omit [FloatOps F] in
/-- Every row is some SparseCore's: chunk `g` is chunk `g % 16` of subcore `g / 32` of SparseCore `g % 32 / 16`. -/
theorem cores_cover : (Finset.univ : Finset (Fin 2)).biUnion coreSet = Finset.univ := by
  ext i
  simp only [Finset.mem_biUnion, Finset.mem_univ, true_and, iff_true]
  obtain ⟨g, hg⟩ := Rect.exists_mem_part hdiv i
  have hg512 := g.isLt
  refine ⟨⟨g.val % 32 / 16, by omega⟩, ?_⟩
  unfold coreSet tileSet
  simp only [Finset.mem_biUnion, Finset.mem_univ, true_and]
  refine ⟨⟨g.val / 32, by omega⟩, ⟨g.val % 16, by omega⟩, ?_⟩
  rw [chunk_eq]
  have e : gIx ⟨g.val % 32 / 16, by omega⟩ ⟨g.val / 32, by omega⟩ ⟨g.val % 16, by omega⟩ = g := Fin.ext (by simp only [gIx]; omega)
  rw [e]; exact hg

/-! ## What the handshakes carry -/

/-- The table's contents, as contents of the result. -/
def tab (d : Dev nD) : Buf (Elt F) (oLoc d) := fun i => m (xLoc d) i

abbrev xOn (d : Dev nD) (I : Finset S8192x1024.Idx) : sProp 𝕄 := xLoc d ↦[I]{fullShare} m (xLoc d)
abbrev oOn (d : Dev nD) (I : Finset S8192x1024.Idx) (f : Buf (Elt F) (oLoc d)) : sProp 𝕄 := oLoc d ↦[I]{fullShare} f
abbrev xPts (d : Dev nD) : sProp 𝕄 := xLoc d ↦{fullShare} m (xLoc d)
abbrev oPts (d : Dev nD) (f : Buf (Elt F) (oLoc d)) : sProp 𝕄 := oLoc d ↦{fullShare} f

/-- A SparseCore is handed its rows of the table and of the result, a subcore its own; they come back with the
    result's rows at the table's. -/
def P : (K (F := F)).Pay (nD := nD) (Val := Elt F) (Name := ℕ) (U := UU) where
  st := fun q d c => match q with
    | 0 => iprop(xOn m d (coreSet (Fin.cast nCore_zero c)) ∗ oOn d (coreSet (Fin.cast nCore_zero c)) (m (oLoc d)))
  dn := fun q d c => match q with
    | 0 => iprop(xOn m d (coreSet (Fin.cast nCore_zero c)) ∗ oOn d (coreSet (Fin.cast nCore_zero c)) (tab m d))
  go := fun q d c i => match q with
    | 0 => iprop(xOn m d (tileSet (Fin.cast nCore_zero c) (Fin.cast nSub_zero i)) ∗ oOn d (tileSet (Fin.cast nCore_zero c) (Fin.cast nSub_zero i)) (m (oLoc d)))
  td := fun q d c i => match q with
    | 0 => iprop(xOn m d (tileSet (Fin.cast nCore_zero c) (Fin.cast nSub_zero i)) ∗ oOn d (tileSet (Fin.cast nCore_zero c) (Fin.cast nSub_zero i)) (tab m d))
  x := fun _ _ => iprop(emp)

instance P_storable : (P (F := F) m).IsStorable where
  st q d c := match q with
    | 0 => (inferInstance : BI.Storable (upEmb : UEmb _ 𝕄) iprop(xOn m d (coreSet (Fin.cast nCore_zero c)) ∗ oOn d (coreSet (Fin.cast nCore_zero c)) (m (oLoc d))))
  dn q d c := match q with
    | 0 => (inferInstance : BI.Storable (upEmb : UEmb _ 𝕄) iprop(xOn m d (coreSet (Fin.cast nCore_zero c)) ∗ oOn d (coreSet (Fin.cast nCore_zero c)) (tab m d)))
  go q d c i := match q with
    | 0 => (inferInstance : BI.Storable (upEmb : UEmb _ 𝕄)
        iprop(xOn m d (tileSet (Fin.cast nCore_zero c) (Fin.cast nSub_zero i)) ∗ oOn d (tileSet (Fin.cast nCore_zero c) (Fin.cast nSub_zero i)) (m (oLoc d))))
  td q d c i := match q with
    | 0 => (inferInstance : BI.Storable (upEmb : UEmb _ 𝕄)
        iprop(xOn m d (tileSet (Fin.cast nCore_zero c) (Fin.cast nSub_zero i)) ∗ oOn d (tileSet (Fin.cast nCore_zero c) (Fin.cast nSub_zero i)) (tab m d)))

/-! ## Families over small index types, written out -/

omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## A subcore's pieces as the body names them -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

omit [FloatOps F] in
/-- The rectangle the body slices for chunk `k` is chunk `32 s + 16 c + k` of the 512. -/
theorem rect_tCh (k : Fin 16) :
    Rect.unit (s := S8192x1024) (k0_off1 L (BitVec.ofNat 32 (16 * k.val))) S16x1024.size (k0_off1_inb L k) = chunkRect (gIx (cL L) (jL L) k) := by
  unfold chunkRect Rect.part Rect.block
  congr 1 <;> funext a
  · rw [k0_off1_eq]
    match a with
    | 0 => simp [Shape.partIx, Shape.partSize, gIx]; omega
    | 1 => simp [Shape.partIx, Shape.partSize]
  · match a with
    | 0 => simp [Shape.partSize]
    | 1 => simp [Shape.partSize]

omit [FloatOps F] in
theorem set_tCh (k : Fin 16) : (tCh L k).view.set = chunk (gIx (cL L) (jL L) k) := by
  show ((tV : Memref sig .scVector .hbm S8192x1024 .f32).view.slice (Rect.unit (s := S8192x1024) (k0_off1 L (BitVec.ofNat 32 (16 * k.val))) S16x1024.size (k0_off1_inb L k))).set
    = ((tV : Memref sig .scVector .hbm S8192x1024 .f32).view.slice (chunkRect (gIx (cL L) (jL L) k))).set
  rw [rect_tCh]
omit [FloatOps F] in
theorem set_oCh (k : Fin 16) :
    ((oV : Memref sig .scVector .hbm S8192x1024 .f32).slice (Rect.unit (s := S8192x1024) (k0_off1 L (BitVec.ofNat 32 (16 * k.val))) S16x1024.size (k0_off1_inb L k)) (fun _ => rfl)).view.set
      = chunk (gIx (cL L) (jL L) k) := by
  show ((oV : Memref sig .scVector .hbm S8192x1024 .f32).view.slice (Rect.unit (s := S8192x1024) (k0_off1 L (BitVec.ofNat 32 (16 * k.val))) S16x1024.size (k0_off1_inb L k))).set
    = ((tV : Memref sig .scVector .hbm S8192x1024 .f32).view.slice (chunkRect (gIx (cL L) (jL L) k))).set
  rw [rect_tCh]; rfl

/-! Chunk `k` of the table and of the result, held under the memref the body slices for it, is the array held on
    that chunk's elements. -/
omit [FloatOps F] in
theorem pts_tC0 (f : Buf (Elt F) (xLoc d)) :
    ((tC0 L).view.loc (V d (cV L) (jV L)) ↦[(tC0 L).view.set]{fullShare} f : sProp 𝕄) = xLoc d ↦[chunk (gIx (cL L) (jL L) 0)]{fullShare} f := by
  rw [show (tC0 L).view.set = chunk (gIx (cL L) (jL L) 0) from set_tCh L 0]
omit [FloatOps F] in
theorem pts_oC0 (f : Buf (Elt F) (oLoc d)) :
    ((oC0 L).view.loc (V d (cV L) (jV L)) ↦[(oC0 L).view.set]{fullShare} f : sProp 𝕄) = oLoc d ↦[chunk (gIx (cL L) (jL L) 0)]{fullShare} f := by
  rw [show (oC0 L).view.set = chunk (gIx (cL L) (jL L) 0) from set_oCh L 0]
omit [FloatOps F] in
theorem pts_tC1 (f : Buf (Elt F) (xLoc d)) :
    ((tC1 L).view.loc (V d (cV L) (jV L)) ↦[(tC1 L).view.set]{fullShare} f : sProp 𝕄) = xLoc d ↦[chunk (gIx (cL L) (jL L) 1)]{fullShare} f := by
  rw [show (tC1 L).view.set = chunk (gIx (cL L) (jL L) 1) from set_tCh L 1]
omit [FloatOps F] in
theorem pts_oC1 (f : Buf (Elt F) (oLoc d)) :
    ((oC1 L).view.loc (V d (cV L) (jV L)) ↦[(oC1 L).view.set]{fullShare} f : sProp 𝕄) = oLoc d ↦[chunk (gIx (cL L) (jL L) 1)]{fullShare} f := by
  rw [show (oC1 L).view.set = chunk (gIx (cL L) (jL L) 1) from set_oCh L 1]
omit [FloatOps F] in
theorem pts_tC2 (f : Buf (Elt F) (xLoc d)) :
    ((tC2 L).view.loc (V d (cV L) (jV L)) ↦[(tC2 L).view.set]{fullShare} f : sProp 𝕄) = xLoc d ↦[chunk (gIx (cL L) (jL L) 2)]{fullShare} f := by
  rw [show (tC2 L).view.set = chunk (gIx (cL L) (jL L) 2) from set_tCh L 2]
omit [FloatOps F] in
theorem pts_oC2 (f : Buf (Elt F) (oLoc d)) :
    ((oC2 L).view.loc (V d (cV L) (jV L)) ↦[(oC2 L).view.set]{fullShare} f : sProp 𝕄) = oLoc d ↦[chunk (gIx (cL L) (jL L) 2)]{fullShare} f := by
  rw [show (oC2 L).view.set = chunk (gIx (cL L) (jL L) 2) from set_oCh L 2]
omit [FloatOps F] in
theorem pts_tC3 (f : Buf (Elt F) (xLoc d)) :
    ((tC3 L).view.loc (V d (cV L) (jV L)) ↦[(tC3 L).view.set]{fullShare} f : sProp 𝕄) = xLoc d ↦[chunk (gIx (cL L) (jL L) 3)]{fullShare} f := by
  rw [show (tC3 L).view.set = chunk (gIx (cL L) (jL L) 3) from set_tCh L 3]
omit [FloatOps F] in
theorem pts_oC3 (f : Buf (Elt F) (oLoc d)) :
    ((oC3 L).view.loc (V d (cV L) (jV L)) ↦[(oC3 L).view.set]{fullShare} f : sProp 𝕄) = oLoc d ↦[chunk (gIx (cL L) (jL L) 3)]{fullShare} f := by
  rw [show (oC3 L).view.set = chunk (gIx (cL L) (jL L) 3) from set_oCh L 3]
omit [FloatOps F] in
theorem pts_tC4 (f : Buf (Elt F) (xLoc d)) :
    ((tC4 L).view.loc (V d (cV L) (jV L)) ↦[(tC4 L).view.set]{fullShare} f : sProp 𝕄) = xLoc d ↦[chunk (gIx (cL L) (jL L) 4)]{fullShare} f := by
  rw [show (tC4 L).view.set = chunk (gIx (cL L) (jL L) 4) from set_tCh L 4]
omit [FloatOps F] in
theorem pts_oC4 (f : Buf (Elt F) (oLoc d)) :
    ((oC4 L).view.loc (V d (cV L) (jV L)) ↦[(oC4 L).view.set]{fullShare} f : sProp 𝕄) = oLoc d ↦[chunk (gIx (cL L) (jL L) 4)]{fullShare} f := by
  rw [show (oC4 L).view.set = chunk (gIx (cL L) (jL L) 4) from set_oCh L 4]
omit [FloatOps F] in
theorem pts_tC5 (f : Buf (Elt F) (xLoc d)) :
    ((tC5 L).view.loc (V d (cV L) (jV L)) ↦[(tC5 L).view.set]{fullShare} f : sProp 𝕄) = xLoc d ↦[chunk (gIx (cL L) (jL L) 5)]{fullShare} f := by
  rw [show (tC5 L).view.set = chunk (gIx (cL L) (jL L) 5) from set_tCh L 5]
omit [FloatOps F] in
theorem pts_oC5 (f : Buf (Elt F) (oLoc d)) :
    ((oC5 L).view.loc (V d (cV L) (jV L)) ↦[(oC5 L).view.set]{fullShare} f : sProp 𝕄) = oLoc d ↦[chunk (gIx (cL L) (jL L) 5)]{fullShare} f := by
  rw [show (oC5 L).view.set = chunk (gIx (cL L) (jL L) 5) from set_oCh L 5]
omit [FloatOps F] in
theorem pts_tC6 (f : Buf (Elt F) (xLoc d)) :
    ((tC6 L).view.loc (V d (cV L) (jV L)) ↦[(tC6 L).view.set]{fullShare} f : sProp 𝕄) = xLoc d ↦[chunk (gIx (cL L) (jL L) 6)]{fullShare} f := by
  rw [show (tC6 L).view.set = chunk (gIx (cL L) (jL L) 6) from set_tCh L 6]
omit [FloatOps F] in
theorem pts_oC6 (f : Buf (Elt F) (oLoc d)) :
    ((oC6 L).view.loc (V d (cV L) (jV L)) ↦[(oC6 L).view.set]{fullShare} f : sProp 𝕄) = oLoc d ↦[chunk (gIx (cL L) (jL L) 6)]{fullShare} f := by
  rw [show (oC6 L).view.set = chunk (gIx (cL L) (jL L) 6) from set_oCh L 6]
omit [FloatOps F] in
theorem pts_tC7 (f : Buf (Elt F) (xLoc d)) :
    ((tC7 L).view.loc (V d (cV L) (jV L)) ↦[(tC7 L).view.set]{fullShare} f : sProp 𝕄) = xLoc d ↦[chunk (gIx (cL L) (jL L) 7)]{fullShare} f := by
  rw [show (tC7 L).view.set = chunk (gIx (cL L) (jL L) 7) from set_tCh L 7]
omit [FloatOps F] in
theorem pts_oC7 (f : Buf (Elt F) (oLoc d)) :
    ((oC7 L).view.loc (V d (cV L) (jV L)) ↦[(oC7 L).view.set]{fullShare} f : sProp 𝕄) = oLoc d ↦[chunk (gIx (cL L) (jL L) 7)]{fullShare} f := by
  rw [show (oC7 L).view.set = chunk (gIx (cL L) (jL L) 7) from set_oCh L 7]
omit [FloatOps F] in
theorem pts_tC8 (f : Buf (Elt F) (xLoc d)) :
    ((tC8 L).view.loc (V d (cV L) (jV L)) ↦[(tC8 L).view.set]{fullShare} f : sProp 𝕄) = xLoc d ↦[chunk (gIx (cL L) (jL L) 8)]{fullShare} f := by
  rw [show (tC8 L).view.set = chunk (gIx (cL L) (jL L) 8) from set_tCh L 8]
omit [FloatOps F] in
theorem pts_oC8 (f : Buf (Elt F) (oLoc d)) :
    ((oC8 L).view.loc (V d (cV L) (jV L)) ↦[(oC8 L).view.set]{fullShare} f : sProp 𝕄) = oLoc d ↦[chunk (gIx (cL L) (jL L) 8)]{fullShare} f := by
  rw [show (oC8 L).view.set = chunk (gIx (cL L) (jL L) 8) from set_oCh L 8]
omit [FloatOps F] in
theorem pts_tC9 (f : Buf (Elt F) (xLoc d)) :
    ((tC9 L).view.loc (V d (cV L) (jV L)) ↦[(tC9 L).view.set]{fullShare} f : sProp 𝕄) = xLoc d ↦[chunk (gIx (cL L) (jL L) 9)]{fullShare} f := by
  rw [show (tC9 L).view.set = chunk (gIx (cL L) (jL L) 9) from set_tCh L 9]
omit [FloatOps F] in
theorem pts_oC9 (f : Buf (Elt F) (oLoc d)) :
    ((oC9 L).view.loc (V d (cV L) (jV L)) ↦[(oC9 L).view.set]{fullShare} f : sProp 𝕄) = oLoc d ↦[chunk (gIx (cL L) (jL L) 9)]{fullShare} f := by
  rw [show (oC9 L).view.set = chunk (gIx (cL L) (jL L) 9) from set_oCh L 9]
omit [FloatOps F] in
theorem pts_tC10 (f : Buf (Elt F) (xLoc d)) :
    ((tC10 L).view.loc (V d (cV L) (jV L)) ↦[(tC10 L).view.set]{fullShare} f : sProp 𝕄) = xLoc d ↦[chunk (gIx (cL L) (jL L) 10)]{fullShare} f := by
  rw [show (tC10 L).view.set = chunk (gIx (cL L) (jL L) 10) from set_tCh L 10]
omit [FloatOps F] in
theorem pts_oC10 (f : Buf (Elt F) (oLoc d)) :
    ((oC10 L).view.loc (V d (cV L) (jV L)) ↦[(oC10 L).view.set]{fullShare} f : sProp 𝕄) = oLoc d ↦[chunk (gIx (cL L) (jL L) 10)]{fullShare} f := by
  rw [show (oC10 L).view.set = chunk (gIx (cL L) (jL L) 10) from set_oCh L 10]
omit [FloatOps F] in
theorem pts_tC11 (f : Buf (Elt F) (xLoc d)) :
    ((tC11 L).view.loc (V d (cV L) (jV L)) ↦[(tC11 L).view.set]{fullShare} f : sProp 𝕄) = xLoc d ↦[chunk (gIx (cL L) (jL L) 11)]{fullShare} f := by
  rw [show (tC11 L).view.set = chunk (gIx (cL L) (jL L) 11) from set_tCh L 11]
omit [FloatOps F] in
theorem pts_oC11 (f : Buf (Elt F) (oLoc d)) :
    ((oC11 L).view.loc (V d (cV L) (jV L)) ↦[(oC11 L).view.set]{fullShare} f : sProp 𝕄) = oLoc d ↦[chunk (gIx (cL L) (jL L) 11)]{fullShare} f := by
  rw [show (oC11 L).view.set = chunk (gIx (cL L) (jL L) 11) from set_oCh L 11]
omit [FloatOps F] in
theorem pts_tC12 (f : Buf (Elt F) (xLoc d)) :
    ((tC12 L).view.loc (V d (cV L) (jV L)) ↦[(tC12 L).view.set]{fullShare} f : sProp 𝕄) = xLoc d ↦[chunk (gIx (cL L) (jL L) 12)]{fullShare} f := by
  rw [show (tC12 L).view.set = chunk (gIx (cL L) (jL L) 12) from set_tCh L 12]
omit [FloatOps F] in
theorem pts_oC12 (f : Buf (Elt F) (oLoc d)) :
    ((oC12 L).view.loc (V d (cV L) (jV L)) ↦[(oC12 L).view.set]{fullShare} f : sProp 𝕄) = oLoc d ↦[chunk (gIx (cL L) (jL L) 12)]{fullShare} f := by
  rw [show (oC12 L).view.set = chunk (gIx (cL L) (jL L) 12) from set_oCh L 12]
omit [FloatOps F] in
theorem pts_tC13 (f : Buf (Elt F) (xLoc d)) :
    ((tC13 L).view.loc (V d (cV L) (jV L)) ↦[(tC13 L).view.set]{fullShare} f : sProp 𝕄) = xLoc d ↦[chunk (gIx (cL L) (jL L) 13)]{fullShare} f := by
  rw [show (tC13 L).view.set = chunk (gIx (cL L) (jL L) 13) from set_tCh L 13]
omit [FloatOps F] in
theorem pts_oC13 (f : Buf (Elt F) (oLoc d)) :
    ((oC13 L).view.loc (V d (cV L) (jV L)) ↦[(oC13 L).view.set]{fullShare} f : sProp 𝕄) = oLoc d ↦[chunk (gIx (cL L) (jL L) 13)]{fullShare} f := by
  rw [show (oC13 L).view.set = chunk (gIx (cL L) (jL L) 13) from set_oCh L 13]
omit [FloatOps F] in
theorem pts_tC14 (f : Buf (Elt F) (xLoc d)) :
    ((tC14 L).view.loc (V d (cV L) (jV L)) ↦[(tC14 L).view.set]{fullShare} f : sProp 𝕄) = xLoc d ↦[chunk (gIx (cL L) (jL L) 14)]{fullShare} f := by
  rw [show (tC14 L).view.set = chunk (gIx (cL L) (jL L) 14) from set_tCh L 14]
omit [FloatOps F] in
theorem pts_oC14 (f : Buf (Elt F) (oLoc d)) :
    ((oC14 L).view.loc (V d (cV L) (jV L)) ↦[(oC14 L).view.set]{fullShare} f : sProp 𝕄) = oLoc d ↦[chunk (gIx (cL L) (jL L) 14)]{fullShare} f := by
  rw [show (oC14 L).view.set = chunk (gIx (cL L) (jL L) 14) from set_oCh L 14]
omit [FloatOps F] in
theorem pts_tC15 (f : Buf (Elt F) (xLoc d)) :
    ((tC15 L).view.loc (V d (cV L) (jV L)) ↦[(tC15 L).view.set]{fullShare} f : sProp 𝕄) = xLoc d ↦[chunk (gIx (cL L) (jL L) 15)]{fullShare} f := by
  rw [show (tC15 L).view.set = chunk (gIx (cL L) (jL L) 15) from set_tCh L 15]
omit [FloatOps F] in
theorem pts_oC15 (f : Buf (Elt F) (oLoc d)) :
    ((oC15 L).view.loc (V d (cV L) (jV L)) ↦[(oC15 L).view.set]{fullShare} f : sProp 𝕄) = oLoc d ↦[chunk (gIx (cL L) (jL L) 15)]{fullShare} f := by
  rw [show (oC15 L).view.set = chunk (gIx (cL L) (jL L) 15) from set_oCh L 15]

end Tile

end Cert.Proof.BitsCopy

end
-- ==== Proof.BitsPieces.lean ====
/-
  A vector subcore's own storage as the copy kernel's body names it: the ring's seven sixteen-row slots (the scratch
  buffer cut along its first axis), the fourteen transfer semaphores (seven for the copies into the ring, seven for the
  copies out of it), and the way back from the slots to the scratch buffer whole.
-/
import proofs.«213585_g19138374271248_cont_8to1_1565_24_alg».proof.Proof.BitsSetup

noncomputable section

namespace Cert.Proof.BitsCopy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The ring's slots -/

theorem hdiv7 : 7 ∣ S7x16x1024.size 0 := ⟨1, rfl⟩
abbrev slotRect (b : Fin 7) : Rect S7x16x1024 := Rect.part (s := S7x16x1024) (a₀ := 0) hdiv7 b
abbrev slotSet (b : Fin 7) : Finset S7x16x1024.Idx := ((rV : Memref sig .scVector .vmem S7x16x1024 .f32).view.slice (slotRect b)).set

theorem slotSet_eq (b : Fin 7) : slotSet b = (slotRect b).set := by
  show ((View.whole (cc0_scratch0 : Ref sig .scVector)).slice (slotRect b)).set = _
  rw [View.set_slice]; exact Finset.map_refl
theorem slots_disjoint : ∀ b ∈ (Finset.univ : Finset (Fin 7)), ∀ b' ∈ (Finset.univ : Finset (Fin 7)), b ≠ b' → Disjoint (slotSet b) (slotSet b') :=
  fun b _ b' _ h => by rw [slotSet_eq, slotSet_eq]; exact Rect.part_disjoint hdiv7 h
theorem slots_cover : (Finset.univ : Finset (Fin 7)).biUnion slotSet = Finset.univ :=
  (Finset.biUnion_congr rfl fun b _ => slotSet_eq b).trans (Rect.biUnion_part hdiv7)

theorem rect_sl0 : Rect.unit (s := S7x16x1024) ![0, 0, 0] S1x16x1024.size inb_S7x16x1024_S1x16x1024_0_0_0 = slotRect 0 := by
  unfold slotRect Rect.part Rect.block
  congr 1 <;> funext a <;> fin_cases a <;> simp [Shape.partIx, Shape.partSize]
theorem set_sl0 : (sl0).view.set = slotSet 0 := by
  show (((rV : Memref sig .scVector .vmem S7x16x1024 .f32).view.slice (Rect.unit (s := S7x16x1024) ![0, 0, 0] S1x16x1024.size inb_S7x16x1024_S1x16x1024_0_0_0)).reshape S16x1024 squeezes_S1x16x1024_S16x1024.numel_eq).set
    = ((rV : Memref sig .scVector .vmem S7x16x1024 .f32).view.slice (slotRect 0)).set
  rw [View.set_reshape]
  exact rect_sl0 ▸ rfl
theorem rect_sl1 : Rect.unit (s := S7x16x1024) ![1, 0, 0] S1x16x1024.size inb_S7x16x1024_S1x16x1024_1_0_0 = slotRect 1 := by
  unfold slotRect Rect.part Rect.block
  congr 1 <;> funext a <;> fin_cases a <;> simp [Shape.partIx, Shape.partSize]
theorem set_sl1 : (sl1).view.set = slotSet 1 := by
  show (((rV : Memref sig .scVector .vmem S7x16x1024 .f32).view.slice (Rect.unit (s := S7x16x1024) ![1, 0, 0] S1x16x1024.size inb_S7x16x1024_S1x16x1024_1_0_0)).reshape S16x1024 squeezes_S1x16x1024_S16x1024.numel_eq).set
    = ((rV : Memref sig .scVector .vmem S7x16x1024 .f32).view.slice (slotRect 1)).set
  rw [View.set_reshape]
  exact rect_sl1 ▸ rfl
theorem rect_sl2 : Rect.unit (s := S7x16x1024) ![2, 0, 0] S1x16x1024.size inb_S7x16x1024_S1x16x1024_2_0_0 = slotRect 2 := by
  unfold slotRect Rect.part Rect.block
  congr 1 <;> funext a <;> fin_cases a <;> simp [Shape.partIx, Shape.partSize]
theorem set_sl2 : (sl2).view.set = slotSet 2 := by
  show (((rV : Memref sig .scVector .vmem S7x16x1024 .f32).view.slice (Rect.unit (s := S7x16x1024) ![2, 0, 0] S1x16x1024.size inb_S7x16x1024_S1x16x1024_2_0_0)).reshape S16x1024 squeezes_S1x16x1024_S16x1024.numel_eq).set
    = ((rV : Memref sig .scVector .vmem S7x16x1024 .f32).view.slice (slotRect 2)).set
  rw [View.set_reshape]
  exact rect_sl2 ▸ rfl
theorem rect_sl3 : Rect.unit (s := S7x16x1024) ![3, 0, 0] S1x16x1024.size inb_S7x16x1024_S1x16x1024_3_0_0 = slotRect 3 := by
  unfold slotRect Rect.part Rect.block
  congr 1 <;> funext a <;> fin_cases a <;> simp [Shape.partIx, Shape.partSize]
theorem set_sl3 : (sl3).view.set = slotSet 3 := by
  show (((rV : Memref sig .scVector .vmem S7x16x1024 .f32).view.slice (Rect.unit (s := S7x16x1024) ![3, 0, 0] S1x16x1024.size inb_S7x16x1024_S1x16x1024_3_0_0)).reshape S16x1024 squeezes_S1x16x1024_S16x1024.numel_eq).set
    = ((rV : Memref sig .scVector .vmem S7x16x1024 .f32).view.slice (slotRect 3)).set
  rw [View.set_reshape]
  exact rect_sl3 ▸ rfl
theorem rect_sl4 : Rect.unit (s := S7x16x1024) ![4, 0, 0] S1x16x1024.size inb_S7x16x1024_S1x16x1024_4_0_0 = slotRect 4 := by
  unfold slotRect Rect.part Rect.block
  congr 1 <;> funext a <;> fin_cases a <;> simp [Shape.partIx, Shape.partSize]
theorem set_sl4 : (sl4).view.set = slotSet 4 := by
  show (((rV : Memref sig .scVector .vmem S7x16x1024 .f32).view.slice (Rect.unit (s := S7x16x1024) ![4, 0, 0] S1x16x1024.size inb_S7x16x1024_S1x16x1024_4_0_0)).reshape S16x1024 squeezes_S1x16x1024_S16x1024.numel_eq).set
    = ((rV : Memref sig .scVector .vmem S7x16x1024 .f32).view.slice (slotRect 4)).set
  rw [View.set_reshape]
  exact rect_sl4 ▸ rfl
theorem rect_sl5 : Rect.unit (s := S7x16x1024) ![5, 0, 0] S1x16x1024.size inb_S7x16x1024_S1x16x1024_5_0_0 = slotRect 5 := by
  unfold slotRect Rect.part Rect.block
  congr 1 <;> funext a <;> fin_cases a <;> simp [Shape.partIx, Shape.partSize]
theorem set_sl5 : (sl5).view.set = slotSet 5 := by
  show (((rV : Memref sig .scVector .vmem S7x16x1024 .f32).view.slice (Rect.unit (s := S7x16x1024) ![5, 0, 0] S1x16x1024.size inb_S7x16x1024_S1x16x1024_5_0_0)).reshape S16x1024 squeezes_S1x16x1024_S16x1024.numel_eq).set
    = ((rV : Memref sig .scVector .vmem S7x16x1024 .f32).view.slice (slotRect 5)).set
  rw [View.set_reshape]
  exact rect_sl5 ▸ rfl
theorem rect_sl6 : Rect.unit (s := S7x16x1024) ![6, 0, 0] S1x16x1024.size inb_S7x16x1024_S1x16x1024_6_0_0 = slotRect 6 := by
  unfold slotRect Rect.part Rect.block
  congr 1 <;> funext a <;> fin_cases a <;> simp [Shape.partIx, Shape.partSize]
theorem set_sl6 : (sl6).view.set = slotSet 6 := by
  show (((rV : Memref sig .scVector .vmem S7x16x1024 .f32).view.slice (Rect.unit (s := S7x16x1024) ![6, 0, 0] S1x16x1024.size inb_S7x16x1024_S1x16x1024_6_0_0)).reshape S16x1024 squeezes_S1x16x1024_S16x1024.numel_eq).set
    = ((rV : Memref sig .scVector .vmem S7x16x1024 .f32).view.slice (slotRect 6)).set
  rw [View.set_reshape]
  exact rect_sl6 ▸ rfl

section Tile

variable (d : Dev nD) (c : Fin τ.nSC) (i : Fin τ.nSub)

abbrev rLoc : Loc nD τ sig := (V d c i).loc cc0_scratch0

theorem pts_sl0 (f : Buf (Elt F) (rLoc d c i)) :
    ((sl0).view.loc (V d c i) ↦[(sl0).view.set]{fullShare} f : sProp 𝕄) = rLoc d c i ↦[slotSet 0]{fullShare} f := by
  rw [show (sl0).view.set = slotSet 0 from set_sl0]
theorem pts_sl1 (f : Buf (Elt F) (rLoc d c i)) :
    ((sl1).view.loc (V d c i) ↦[(sl1).view.set]{fullShare} f : sProp 𝕄) = rLoc d c i ↦[slotSet 1]{fullShare} f := by
  rw [show (sl1).view.set = slotSet 1 from set_sl1]
theorem pts_sl2 (f : Buf (Elt F) (rLoc d c i)) :
    ((sl2).view.loc (V d c i) ↦[(sl2).view.set]{fullShare} f : sProp 𝕄) = rLoc d c i ↦[slotSet 2]{fullShare} f := by
  rw [show (sl2).view.set = slotSet 2 from set_sl2]
theorem pts_sl3 (f : Buf (Elt F) (rLoc d c i)) :
    ((sl3).view.loc (V d c i) ↦[(sl3).view.set]{fullShare} f : sProp 𝕄) = rLoc d c i ↦[slotSet 3]{fullShare} f := by
  rw [show (sl3).view.set = slotSet 3 from set_sl3]
theorem pts_sl4 (f : Buf (Elt F) (rLoc d c i)) :
    ((sl4).view.loc (V d c i) ↦[(sl4).view.set]{fullShare} f : sProp 𝕄) = rLoc d c i ↦[slotSet 4]{fullShare} f := by
  rw [show (sl4).view.set = slotSet 4 from set_sl4]
theorem pts_sl5 (f : Buf (Elt F) (rLoc d c i)) :
    ((sl5).view.loc (V d c i) ↦[(sl5).view.set]{fullShare} f : sProp 𝕄) = rLoc d c i ↦[slotSet 5]{fullShare} f := by
  rw [show (sl5).view.set = slotSet 5 from set_sl5]
theorem pts_sl6 (f : Buf (Elt F) (rLoc d c i)) :
    ((sl6).view.loc (V d c i) ↦[(sl6).view.set]{fullShare} f : sProp 𝕄) = rLoc d c i ↦[slotSet 6]{fullShare} f := by
  rw [show (sl6).view.set = slotSet 6 from set_sl6]

/-- The scratch buffer whole is its seven slots. -/
theorem ring_split (f : Buf (Elt F) (rLoc d c i)) :
    (rLoc d c i ↦{fullShare} f : sProp 𝕄) = iprop((rLoc d c i ↦[slotSet 0]{fullShare} f) ∗ (rLoc d c i ↦[slotSet 1]{fullShare} f) ∗ (rLoc d c i ↦[slotSet 2]{fullShare} f) ∗ (rLoc d c i ↦[slotSet 3]{fullShare} f) ∗ (rLoc d c i ↦[slotSet 4]{fullShare} f) ∗ (rLoc d c i ↦[slotSet 5]{fullShare} f) ∗ (rLoc d c i ↦[slotSet 6]{fullShare} f)) := by
  rw [← bigSep_fin7 (F := F) (fun b => rLoc d c i ↦[slotSet b]{fullShare} f), ← pointsTo_biUnion Finset.univ (ℓ := rLoc d c i) slotSet slots_disjoint, slots_cover]; try rfl

/-- Seven slots at whatever they hold are the scratch buffer at something. -/
theorem ring_join [FloatOps F] :
    (iprop((∃ f, rLoc d c i ↦[slotSet 0]{fullShare} f) ∗ (∃ f, rLoc d c i ↦[slotSet 1]{fullShare} f) ∗ (∃ f, rLoc d c i ↦[slotSet 2]{fullShare} f) ∗ (∃ f, rLoc d c i ↦[slotSet 3]{fullShare} f) ∗ (∃ f, rLoc d c i ↦[slotSet 4]{fullShare} f) ∗ (∃ f, rLoc d c i ↦[slotSet 5]{fullShare} f) ∗ (∃ f, rLoc d c i ↦[slotSet 6]{fullShare} f)) : sProp 𝕄) ⊢ iprop(∃ f, rLoc d c i ↦{fullShare} f) := by
  rw [← bigSep_fin7 (F := F) (fun b => iprop(∃ f, rLoc d c i ↦[slotSet b]{fullShare} f))]
  refine (bigSep_exists_pi Finset.univ (fun b (f : Buf (Elt F) (rLoc d c i)) => (rLoc d c i ↦[slotSet b]{fullShare} f : sProp 𝕄))).trans ?_
  iintro ⟨%fs, H⟩
  ihave H' := (pointsTo_biUnion_join Finset.univ slotSet fs (fs 0) slots_disjoint) $$ H
  icases H' with ⟨%g, -, Hg⟩
  rw [slots_cover]
  iexists g; iexact Hg

/-! ## The semaphores -/

theorem reg_unscoped : ∀ r : Sem sig, (SemLoc.reg r : SemLoc sig).isScoped .scVector = false := by decide
theorem dma_scoped : ∀ n : DmaSem sig, (SemLoc.dma n : SemLoc sig).isScoped .scVector = true := by decide

theorem ownCells_V : ownCells (sig := sig) (V d c i)
    = (Finset.univ : Finset (Fin 14)).map ⟨fun n => ((V d c i, SemLoc.dma n) : GSem nD τ sig), fun _ _ e => SemLoc.dma.inj (Prod.mk.inj e).2⟩ := by
  ext ⟨t, sm⟩
  simp only [mem_ownCells, Finset.mem_map, Finset.mem_univ, true_and, Function.Embedding.coeFn_mk]
  constructor
  · rintro ⟨rfl, h⟩
    cases sm with
    | reg r => exact absurd ((reg_unscoped r).symm.trans h) Bool.false_ne_true
    | dma n => exact ⟨n, rfl⟩
  · rintro ⟨n, e⟩
    obtain ⟨rfl, rfl⟩ := Prod.mk.inj e
    exact ⟨rfl, dma_scoped n⟩

/-- The subcore's scoped semaphores at zero are the kernel's fourteen. -/
theorem ownSems0_V :
    (ownSems0 (V d c i) : sProp 𝕄)
      = iprop(semVal (V d c i, SemLoc.dma cc0_scratch1.sem) 0 ∗ semVal (V d c i, SemLoc.dma cc0_scratch2.sem) 0 ∗ semVal (V d c i, SemLoc.dma cc0_scratch3.sem) 0 ∗ semVal (V d c i, SemLoc.dma cc0_scratch4.sem) 0 ∗ semVal (V d c i, SemLoc.dma cc0_scratch5.sem) 0 ∗ semVal (V d c i, SemLoc.dma cc0_scratch6.sem) 0 ∗ semVal (V d c i, SemLoc.dma cc0_scratch7.sem) 0 ∗ semVal (V d c i, SemLoc.dma cc0_scratch8.sem) 0 ∗ semVal (V d c i, SemLoc.dma cc0_scratch9.sem) 0 ∗ semVal (V d c i, SemLoc.dma cc0_scratch10.sem) 0 ∗ semVal (V d c i, SemLoc.dma cc0_scratch11.sem) 0 ∗ semVal (V d c i, SemLoc.dma cc0_scratch12.sem) 0 ∗ semVal (V d c i, SemLoc.dma cc0_scratch13.sem) 0 ∗ semVal (V d c i, SemLoc.dma cc0_scratch14.sem) 0) := by
  unfold SparseCore.Cfg.ownSems0
  rw [ownCells_V, bigSep_map, bigSep_fin14]
  rfl

/-! ## The subcore's own buffers -/

theorem ownBufs_V :
    (ownBufs (V d c i) : sProp 𝕄)
      = iprop((∃ f, rLoc d c i ↦{fullShare} f)
          ∗ bigSep ((ownRefs (τ := τ) (sig := sig) (.scVector c i)).erase ((Proc.scVector c i).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector c i) (b := (Proc.scVector c i).devRef cc0_scratch0) rfl)

/-! ## A subcore's rows, chunk by chunk -/

theorem xOn_tile (c' : Fin 2) (s : Fin 16) (f : Buf (Elt F) (xLoc d)) :
    (xLoc d ↦[tileSet c' s]{fullShare} f : sProp 𝕄) = iprop((xLoc d ↦[chunk (gIx c' s 0)]{fullShare} f) ∗ (xLoc d ↦[chunk (gIx c' s 1)]{fullShare} f) ∗ (xLoc d ↦[chunk (gIx c' s 2)]{fullShare} f) ∗ (xLoc d ↦[chunk (gIx c' s 3)]{fullShare} f) ∗ (xLoc d ↦[chunk (gIx c' s 4)]{fullShare} f) ∗ (xLoc d ↦[chunk (gIx c' s 5)]{fullShare} f) ∗ (xLoc d ↦[chunk (gIx c' s 6)]{fullShare} f) ∗ (xLoc d ↦[chunk (gIx c' s 7)]{fullShare} f) ∗ (xLoc d ↦[chunk (gIx c' s 8)]{fullShare} f) ∗ (xLoc d ↦[chunk (gIx c' s 9)]{fullShare} f) ∗ (xLoc d ↦[chunk (gIx c' s 10)]{fullShare} f) ∗ (xLoc d ↦[chunk (gIx c' s 11)]{fullShare} f) ∗ (xLoc d ↦[chunk (gIx c' s 12)]{fullShare} f) ∗ (xLoc d ↦[chunk (gIx c' s 13)]{fullShare} f) ∗ (xLoc d ↦[chunk (gIx c' s 14)]{fullShare} f) ∗ (xLoc d ↦[chunk (gIx c' s 15)]{fullShare} f)) := by
  unfold tileSet
  rw [pointsTo_biUnion Finset.univ (ℓ := xLoc d) (fun k : Fin 16 => chunk (gIx c' s k)) (chunks_disjoint c' s), bigSep_fin16]
theorem oOn_tile (c' : Fin 2) (s : Fin 16) (f : Buf (Elt F) (oLoc d)) :
    (oLoc d ↦[tileSet c' s]{fullShare} f : sProp 𝕄) = iprop((oLoc d ↦[chunk (gIx c' s 0)]{fullShare} f) ∗ (oLoc d ↦[chunk (gIx c' s 1)]{fullShare} f) ∗ (oLoc d ↦[chunk (gIx c' s 2)]{fullShare} f) ∗ (oLoc d ↦[chunk (gIx c' s 3)]{fullShare} f) ∗ (oLoc d ↦[chunk (gIx c' s 4)]{fullShare} f) ∗ (oLoc d ↦[chunk (gIx c' s 5)]{fullShare} f) ∗ (oLoc d ↦[chunk (gIx c' s 6)]{fullShare} f) ∗ (oLoc d ↦[chunk (gIx c' s 7)]{fullShare} f) ∗ (oLoc d ↦[chunk (gIx c' s 8)]{fullShare} f) ∗ (oLoc d ↦[chunk (gIx c' s 9)]{fullShare} f) ∗ (oLoc d ↦[chunk (gIx c' s 10)]{fullShare} f) ∗ (oLoc d ↦[chunk (gIx c' s 11)]{fullShare} f) ∗ (oLoc d ↦[chunk (gIx c' s 12)]{fullShare} f) ∗ (oLoc d ↦[chunk (gIx c' s 13)]{fullShare} f) ∗ (oLoc d ↦[chunk (gIx c' s 14)]{fullShare} f) ∗ (oLoc d ↦[chunk (gIx c' s 15)]{fullShare} f)) := by
  unfold tileSet
  rw [pointsTo_biUnion Finset.univ (ℓ := oLoc d) (fun k : Fin 16 => chunk (gIx c' s k)) (chunks_disjoint c' s), bigSep_fin16]

end Tile

end Cert.Proof.BitsCopy

end
-- ==== Proof.BitsBody.lean ====
/-
  One vector subcore's task of the copy kernel, at a symbolic place: holding its sixteen chunks of the table and of the
  result, its ring's seven slots and its fourteen semaphores at zero, it issues chunk k into slot k % 7, waits for it six
  issues later, sends the slot out to chunk k of the result, and waits for that before the slot is filled again; every
  slot and every semaphore has one copy in flight at a time. At the end each chunk of the result holds what the
  corresponding chunk of the table held, and the table is as it was.
-/
import proofs.«213585_g19138374271248_cont_8to1_1565_24_alg».proof.Proof.BitsPieces

noncomputable section

namespace Cert.Proof.BitsCopy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

section Tile

variable (d : Dev nD) (L : grid0.Coords)

omit [FloatOps F] in
/-- A sixteen-row piece that went from a view `vt` of one array into a ring slot (whatever the slot held, whatever
    landed in it before) and from the slot into a view `vo` of another array reads, through `vo`, as the first array
    reads through `vt`. -/
theorem through_slot (vo : View sig .scVector .hbm S16x1024 .f32) (vs : View sig .scVector .vmem S16x1024 .f32) (vt : View sig .scVector .hbm S16x1024 .f32)
    (fo : vo.ty.Contents (Elt F)) (fr : vs.ty.Contents (Elt F)) (Lr : List (View.Piece (Elt F) S16x1024 .f32)) (ft : vt.ty.Contents (Elt F)) :
    vo.read (Elt F) (vo.writes (Elt F) fo [⟨Rect.whole S16x1024, ReadAs.same.apply (vs.read (Elt F) (vs.writes (Elt F) fr (⟨Rect.whole S16x1024, ReadAs.same.apply (vt.read (Elt F) ft)⟩ :: Lr)))⟩])
      = vt.read (Elt F) ft := by
  rw [View.read_writes_whole, ReadAs.apply_same, ReadAs.apply_same, ← View.write_univ_eq_writes_whole, View.read_write_univ]

omit [FloatOps F] in
/-- The same at one element of `vo`: the array written through `vo` agrees there with any contents `g` that read,
    through `vo`, as the first array through `vt`. -/
theorem value_at (vo : View sig .scVector .hbm S16x1024 .f32) (vs : View sig .scVector .vmem S16x1024 .f32) (vt : View sig .scVector .hbm S16x1024 .f32)
    (fo : vo.ty.Contents (Elt F)) (fr : vs.ty.Contents (Elt F)) (Lr : List (View.Piece (Elt F) S16x1024 .f32)) (ft : vt.ty.Contents (Elt F))
    (g : vo.ty.Contents (Elt F)) (y : S16x1024.Idx) (hg : vo.read (Elt F) g y = vt.read (Elt F) ft y) :
    vo.writes (Elt F) fo [⟨Rect.whole S16x1024, ReadAs.same.apply (vs.read (Elt F) (vs.writes (Elt F) fr (⟨Rect.whole S16x1024, ReadAs.same.apply (vt.read (Elt F) ft)⟩ :: Lr)))⟩] (vo.emb y)
      = g (vo.emb y) := by
  have h := congrFun (through_slot vo vs vt fo fr Lr ft) y
  rw [← hg, View.read_apply, View.read_apply] at h
  exact eq_of_heq (((cast_heq _ _).symm.trans (heq_of_eq h)).trans (cast_heq _ _))

omit [FloatOps F] in
/-- One more wait recorded at no call's index keeps the record of the form the launch asks for. -/
theorem waits_insert {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

theorem tile_body (hF : (K (F := F)).Facts) (O : CellTallies nD τ sig (HIx 1)) (W : Waits sig (HIx 1)) (hO : ∀ g, O g none = 0) :
    iprop(levAts (K (F := F)).L (K (F := F)).lev ∗ emp
        ∗ (xOn m d (tileSet (cL L) (jL L)) ∗ oOn d (tileSet (cL L) (jL L)) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L tV (Memref.isWhole_whole _) oV (Memref.isWhole_whole _) rV (Memref.isWhole_whole _) cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14)
          fun _ => iprop((xOn m d (tileSet (cL L) (jL L)) ∗ oOn d (tileSet (cL L) (jL L)) (tab m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  simp only [xOn, oOn, xOn_tile, oOn_tile]
  iintro ⟨#Hlv, -, ⟨⟨T0, T1, T2, T3, T4, T5, T6, T7, T8, T9, T10, T11, T12, T13, T14, T15⟩, ⟨U0, U1, U2, U3, U4, U5, U6, U7, U8, U9, U10, U11, U12, U13, U14, U15⟩⟩, ⟨⟨%fr, Hr⟩, Hbufs⟩, ⟨S1, S2, S3, S4, S5, S6, S7, S8, S9, S10, S11, S12, S13, S14⟩, HO⟩
  ihave Hr' := (Entails.of_eq (ring_split (F := F) d (cV L) (jV L) fr)) $$ Hr
  icases Hr' with ⟨R0, R1, R2, R3, R4, R5, R6⟩
  ihave T0 := (Entails.of_eq (pts_tC0 (F := F) d L _).symm) $$ T0
  ihave U0 := (Entails.of_eq (pts_oC0 (F := F) d L _).symm) $$ U0
  ihave T1 := (Entails.of_eq (pts_tC1 (F := F) d L _).symm) $$ T1
  ihave U1 := (Entails.of_eq (pts_oC1 (F := F) d L _).symm) $$ U1
  ihave T2 := (Entails.of_eq (pts_tC2 (F := F) d L _).symm) $$ T2
  ihave U2 := (Entails.of_eq (pts_oC2 (F := F) d L _).symm) $$ U2
  ihave T3 := (Entails.of_eq (pts_tC3 (F := F) d L _).symm) $$ T3
  ihave U3 := (Entails.of_eq (pts_oC3 (F := F) d L _).symm) $$ U3
  ihave T4 := (Entails.of_eq (pts_tC4 (F := F) d L _).symm) $$ T4
  ihave U4 := (Entails.of_eq (pts_oC4 (F := F) d L _).symm) $$ U4
  ihave T5 := (Entails.of_eq (pts_tC5 (F := F) d L _).symm) $$ T5
  ihave U5 := (Entails.of_eq (pts_oC5 (F := F) d L _).symm) $$ U5
  ihave T6 := (Entails.of_eq (pts_tC6 (F := F) d L _).symm) $$ T6
  ihave U6 := (Entails.of_eq (pts_oC6 (F := F) d L _).symm) $$ U6
  ihave T7 := (Entails.of_eq (pts_tC7 (F := F) d L _).symm) $$ T7
  ihave U7 := (Entails.of_eq (pts_oC7 (F := F) d L _).symm) $$ U7
  ihave T8 := (Entails.of_eq (pts_tC8 (F := F) d L _).symm) $$ T8
  ihave U8 := (Entails.of_eq (pts_oC8 (F := F) d L _).symm) $$ U8
  ihave T9 := (Entails.of_eq (pts_tC9 (F := F) d L _).symm) $$ T9
  ihave U9 := (Entails.of_eq (pts_oC9 (F := F) d L _).symm) $$ U9
  ihave T10 := (Entails.of_eq (pts_tC10 (F := F) d L _).symm) $$ T10
  ihave U10 := (Entails.of_eq (pts_oC10 (F := F) d L _).symm) $$ U10
  ihave T11 := (Entails.of_eq (pts_tC11 (F := F) d L _).symm) $$ T11
  ihave U11 := (Entails.of_eq (pts_oC11 (F := F) d L _).symm) $$ U11
  ihave T12 := (Entails.of_eq (pts_tC12 (F := F) d L _).symm) $$ T12
  ihave U12 := (Entails.of_eq (pts_oC12 (F := F) d L _).symm) $$ U12
  ihave T13 := (Entails.of_eq (pts_tC13 (F := F) d L _).symm) $$ T13
  ihave U13 := (Entails.of_eq (pts_oC13 (F := F) d L _).symm) $$ U13
  ihave T14 := (Entails.of_eq (pts_tC14 (F := F) d L _).symm) $$ T14
  ihave U14 := (Entails.of_eq (pts_oC14 (F := F) d L _).symm) $$ U14
  ihave T15 := (Entails.of_eq (pts_tC15 (F := F) d L _).symm) $$ T15
  ihave U15 := (Entails.of_eq (pts_oC15 (F := F) d L _).symm) $$ U15
  ihave R0 := (Entails.of_eq (pts_sl0 (F := F) d (cV L) (jV L) _).symm) $$ R0
  ihave R1 := (Entails.of_eq (pts_sl1 (F := F) d (cV L) (jV L) _).symm) $$ R1
  ihave R2 := (Entails.of_eq (pts_sl2 (F := F) d (cV L) (jV L) _).symm) $$ R2
  ihave R3 := (Entails.of_eq (pts_sl3 (F := F) d (cV L) (jV L) _).symm) $$ R3
  ihave R4 := (Entails.of_eq (pts_sl4 (F := F) d (cV L) (jV L) _).symm) $$ R4
  ihave R5 := (Entails.of_eq (pts_sl5 (F := F) d (cV L) (jV L) _).symm) $$ R5
  ihave R6 := (Entails.of_eq (pts_sl6 (F := F) d (cV L) (jV L) _).symm) $$ R6
  ihave Hmw := ((K (F := F)).mayWaits_none (thr := V d (cV L) (jV L)) hO) $$ Hlv
  sl_exec_parts
  sl_step
  -- each chunk of the result holds the table's chunk
  have hv0 : ∀ i ∈ chunk (gIx (cL L) (jL L) 0),
      ((oC0 L).view.writes (Elt F) (m (oLoc d)) [⟨Rect.whole S16x1024, tile_body.sl.dma0_7 m d L fr⟩]) i = tab m d i := by
    intro i hi
    rw [← set_oCh L 0] at hi
    obtain ⟨y, -, rfl⟩ := Finset.mem_map.mp hi
    exact value_at (F := F) (oC0 L).view sl0.view (tC0 L).view _ fr _ (m (xLoc d)) (tab m d) y rfl
  ihave U0 := (Entails.of_eq ((pts_oC0 (F := F) d L _).trans (pointsTo_congr hv0))) $$ U0
  ihave T0 := (Entails.of_eq (pts_tC0 (F := F) d L _)) $$ T0
  have hv1 : ∀ i ∈ chunk (gIx (cL L) (jL L) 1),
      ((oC1 L).view.writes (Elt F) (m (oLoc d)) [⟨Rect.whole S16x1024, tile_body.sl.dma0_9 m d L fr⟩]) i = tab m d i := by
    intro i hi
    rw [← set_oCh L 1] at hi
    obtain ⟨y, -, rfl⟩ := Finset.mem_map.mp hi
    exact value_at (F := F) (oC1 L).view sl1.view (tC1 L).view _ fr _ (m (xLoc d)) (tab m d) y rfl
  ihave U1 := (Entails.of_eq ((pts_oC1 (F := F) d L _).trans (pointsTo_congr hv1))) $$ U1
  ihave T1 := (Entails.of_eq (pts_tC1 (F := F) d L _)) $$ T1
  have hv2 : ∀ i ∈ chunk (gIx (cL L) (jL L) 2),
      ((oC2 L).view.writes (Elt F) (m (oLoc d)) [⟨Rect.whole S16x1024, tile_body.sl.dma0_11 m d L fr⟩]) i = tab m d i := by
    intro i hi
    rw [← set_oCh L 2] at hi
    obtain ⟨y, -, rfl⟩ := Finset.mem_map.mp hi
    exact value_at (F := F) (oC2 L).view sl2.view (tC2 L).view _ fr _ (m (xLoc d)) (tab m d) y rfl
  ihave U2 := (Entails.of_eq ((pts_oC2 (F := F) d L _).trans (pointsTo_congr hv2))) $$ U2
  ihave T2 := (Entails.of_eq (pts_tC2 (F := F) d L _)) $$ T2
  have hv3 : ∀ i ∈ chunk (gIx (cL L) (jL L) 3),
      ((oC3 L).view.writes (Elt F) (m (oLoc d)) [⟨Rect.whole S16x1024, tile_body.sl.dma0_13 m d L fr⟩]) i = tab m d i := by
    intro i hi
    rw [← set_oCh L 3] at hi
    obtain ⟨y, -, rfl⟩ := Finset.mem_map.mp hi
    exact value_at (F := F) (oC3 L).view sl3.view (tC3 L).view _ fr _ (m (xLoc d)) (tab m d) y rfl
  ihave U3 := (Entails.of_eq ((pts_oC3 (F := F) d L _).trans (pointsTo_congr hv3))) $$ U3
  ihave T3 := (Entails.of_eq (pts_tC3 (F := F) d L _)) $$ T3
  have hv4 : ∀ i ∈ chunk (gIx (cL L) (jL L) 4),
      ((oC4 L).view.writes (Elt F) (m (oLoc d)) [⟨Rect.whole S16x1024, tile_body.sl.dma0_15 m d L fr⟩]) i = tab m d i := by
    intro i hi
    rw [← set_oCh L 4] at hi
    obtain ⟨y, -, rfl⟩ := Finset.mem_map.mp hi
    exact value_at (F := F) (oC4 L).view sl4.view (tC4 L).view _ fr _ (m (xLoc d)) (tab m d) y rfl
  ihave U4 := (Entails.of_eq ((pts_oC4 (F := F) d L _).trans (pointsTo_congr hv4))) $$ U4
  ihave T4 := (Entails.of_eq (pts_tC4 (F := F) d L _)) $$ T4
  have hv5 : ∀ i ∈ chunk (gIx (cL L) (jL L) 5),
      ((oC5 L).view.writes (Elt F) (m (oLoc d)) [⟨Rect.whole S16x1024, tile_body.sl.dma0_17 m d L fr⟩]) i = tab m d i := by
    intro i hi
    rw [← set_oCh L 5] at hi
    obtain ⟨y, -, rfl⟩ := Finset.mem_map.mp hi
    exact value_at (F := F) (oC5 L).view sl5.view (tC5 L).view _ fr _ (m (xLoc d)) (tab m d) y rfl
  ihave U5 := (Entails.of_eq ((pts_oC5 (F := F) d L _).trans (pointsTo_congr hv5))) $$ U5
  ihave T5 := (Entails.of_eq (pts_tC5 (F := F) d L _)) $$ T5
  have hv6 : ∀ i ∈ chunk (gIx (cL L) (jL L) 6),
      ((oC6 L).view.writes (Elt F) (m (oLoc d)) [⟨Rect.whole S16x1024, tile_body.sl.dma0_19 m d L fr⟩]) i = tab m d i := by
    intro i hi
    rw [← set_oCh L 6] at hi
    obtain ⟨y, -, rfl⟩ := Finset.mem_map.mp hi
    exact value_at (F := F) (oC6 L).view sl6.view (tC6 L).view _ fr _ (m (xLoc d)) (tab m d) y rfl
  ihave U6 := (Entails.of_eq ((pts_oC6 (F := F) d L _).trans (pointsTo_congr hv6))) $$ U6
  ihave T6 := (Entails.of_eq (pts_tC6 (F := F) d L _)) $$ T6
  have hv7 : ∀ i ∈ chunk (gIx (cL L) (jL L) 7),
      ((oC7 L).view.writes (Elt F) (m (oLoc d)) [⟨Rect.whole S16x1024, tile_body.sl.dma0_21 m d L fr⟩]) i = tab m d i := by
    intro i hi
    rw [← set_oCh L 7] at hi
    obtain ⟨y, -, rfl⟩ := Finset.mem_map.mp hi
    exact value_at (F := F) (oC7 L).view sl0.view (tC7 L).view _ fr _ (m (xLoc d)) (tab m d) y rfl
  ihave U7 := (Entails.of_eq ((pts_oC7 (F := F) d L _).trans (pointsTo_congr hv7))) $$ U7
  ihave T7 := (Entails.of_eq (pts_tC7 (F := F) d L _)) $$ T7
  have hv8 : ∀ i ∈ chunk (gIx (cL L) (jL L) 8),
      ((oC8 L).view.writes (Elt F) (m (oLoc d)) [⟨Rect.whole S16x1024, tile_body.sl.dma0_23 m d L fr⟩]) i = tab m d i := by
    intro i hi
    rw [← set_oCh L 8] at hi
    obtain ⟨y, -, rfl⟩ := Finset.mem_map.mp hi
    exact value_at (F := F) (oC8 L).view sl1.view (tC8 L).view _ fr _ (m (xLoc d)) (tab m d) y rfl
  ihave U8 := (Entails.of_eq ((pts_oC8 (F := F) d L _).trans (pointsTo_congr hv8))) $$ U8
  ihave T8 := (Entails.of_eq (pts_tC8 (F := F) d L _)) $$ T8
  have hv9 : ∀ i ∈ chunk (gIx (cL L) (jL L) 9),
      ((oC9 L).view.writes (Elt F) (m (oLoc d)) [⟨Rect.whole S16x1024, tile_body.sl.dma0_25 m d L fr⟩]) i = tab m d i := by
    intro i hi
    rw [← set_oCh L 9] at hi
    obtain ⟨y, -, rfl⟩ := Finset.mem_map.mp hi
    exact value_at (F := F) (oC9 L).view sl2.view (tC9 L).view _ fr _ (m (xLoc d)) (tab m d) y rfl
  ihave U9 := (Entails.of_eq ((pts_oC9 (F := F) d L _).trans (pointsTo_congr hv9))) $$ U9
  ihave T9 := (Entails.of_eq (pts_tC9 (F := F) d L _)) $$ T9
  have hv10 : ∀ i ∈ chunk (gIx (cL L) (jL L) 10),
      ((oC10 L).view.writes (Elt F) (m (oLoc d)) [⟨Rect.whole S16x1024, tile_body.sl.dma0_26 m d L fr⟩]) i = tab m d i := by
    intro i hi
    rw [← set_oCh L 10] at hi
    obtain ⟨y, -, rfl⟩ := Finset.mem_map.mp hi
    exact value_at (F := F) (oC10 L).view sl3.view (tC10 L).view _ fr _ (m (xLoc d)) (tab m d) y rfl
  ihave U10 := (Entails.of_eq ((pts_oC10 (F := F) d L _).trans (pointsTo_congr hv10))) $$ U10
  ihave T10 := (Entails.of_eq (pts_tC10 (F := F) d L _)) $$ T10
  have hv11 : ∀ i ∈ chunk (gIx (cL L) (jL L) 11),
      ((oC11 L).view.writes (Elt F) (m (oLoc d)) [⟨Rect.whole S16x1024, tile_body.sl.dma0_27 m d L fr⟩]) i = tab m d i := by
    intro i hi
    rw [← set_oCh L 11] at hi
    obtain ⟨y, -, rfl⟩ := Finset.mem_map.mp hi
    exact value_at (F := F) (oC11 L).view sl4.view (tC11 L).view _ fr _ (m (xLoc d)) (tab m d) y rfl
  ihave U11 := (Entails.of_eq ((pts_oC11 (F := F) d L _).trans (pointsTo_congr hv11))) $$ U11
  ihave T11 := (Entails.of_eq (pts_tC11 (F := F) d L _)) $$ T11
  have hv12 : ∀ i ∈ chunk (gIx (cL L) (jL L) 12),
      ((oC12 L).view.writes (Elt F) (m (oLoc d)) [⟨Rect.whole S16x1024, tile_body.sl.dma0_28 m d L fr⟩]) i = tab m d i := by
    intro i hi
    rw [← set_oCh L 12] at hi
    obtain ⟨y, -, rfl⟩ := Finset.mem_map.mp hi
    exact value_at (F := F) (oC12 L).view sl5.view (tC12 L).view _ fr _ (m (xLoc d)) (tab m d) y rfl
  ihave U12 := (Entails.of_eq ((pts_oC12 (F := F) d L _).trans (pointsTo_congr hv12))) $$ U12
  ihave T12 := (Entails.of_eq (pts_tC12 (F := F) d L _)) $$ T12
  have hv13 : ∀ i ∈ chunk (gIx (cL L) (jL L) 13),
      ((oC13 L).view.writes (Elt F) (m (oLoc d)) [⟨Rect.whole S16x1024, tile_body.sl.dma0_29 m d L fr⟩]) i = tab m d i := by
    intro i hi
    rw [← set_oCh L 13] at hi
    obtain ⟨y, -, rfl⟩ := Finset.mem_map.mp hi
    exact value_at (F := F) (oC13 L).view sl6.view (tC13 L).view _ fr _ (m (xLoc d)) (tab m d) y rfl
  ihave U13 := (Entails.of_eq ((pts_oC13 (F := F) d L _).trans (pointsTo_congr hv13))) $$ U13
  ihave T13 := (Entails.of_eq (pts_tC13 (F := F) d L _)) $$ T13
  have hv14 : ∀ i ∈ chunk (gIx (cL L) (jL L) 14),
      ((oC14 L).view.writes (Elt F) (m (oLoc d)) [⟨Rect.whole S16x1024, tile_body.sl.dma0_30 m d L fr⟩]) i = tab m d i := by
    intro i hi
    rw [← set_oCh L 14] at hi
    obtain ⟨y, -, rfl⟩ := Finset.mem_map.mp hi
    exact value_at (F := F) (oC14 L).view sl0.view (tC14 L).view _ fr _ (m (xLoc d)) (tab m d) y rfl
  ihave U14 := (Entails.of_eq ((pts_oC14 (F := F) d L _).trans (pointsTo_congr hv14))) $$ U14
  ihave T14 := (Entails.of_eq (pts_tC14 (F := F) d L _)) $$ T14
  have hv15 : ∀ i ∈ chunk (gIx (cL L) (jL L) 15),
      ((oC15 L).view.writes (Elt F) (m (oLoc d)) [⟨Rect.whole S16x1024, tile_body.sl.dma0_31 m d L fr⟩]) i = tab m d i := by
    intro i hi
    rw [← set_oCh L 15] at hi
    obtain ⟨y, -, rfl⟩ := Finset.mem_map.mp hi
    exact value_at (F := F) (oC15 L).view sl1.view (tC15 L).view _ fr _ (m (xLoc d)) (tab m d) y rfl
  ihave U15 := (Entails.of_eq ((pts_oC15 (F := F) d L _).trans (pointsTo_congr hv15))) $$ U15
  ihave T15 := (Entails.of_eq (pts_tC15 (F := F) d L _)) $$ T15
  ihave R0 := (Entails.of_eq (pts_sl0 (F := F) d (cV L) (jV L) _)) $$ R0
  ihave R1 := (Entails.of_eq (pts_sl1 (F := F) d (cV L) (jV L) _)) $$ R1
  ihave R2 := (Entails.of_eq (pts_sl2 (F := F) d (cV L) (jV L) _)) $$ R2
  ihave R3 := (Entails.of_eq (pts_sl3 (F := F) d (cV L) (jV L) _)) $$ R3
  ihave R4 := (Entails.of_eq (pts_sl4 (F := F) d (cV L) (jV L) _)) $$ R4
  ihave R5 := (Entails.of_eq (pts_sl5 (F := F) d (cV L) (jV L) _)) $$ R5
  ihave R6 := (Entails.of_eq (pts_sl6 (F := F) d (cV L) (jV L) _)) $$ R6
  isplitl [T0 T1 T2 T3 T4 T5 T6 T7 T8 T9 T10 T11 T12 T13 T14 T15 U0 U1 U2 U3 U4 U5 U6 U7 U8 U9 U10 U11 U12 U13 U14 U15]
  · isplitl [T0 T1 T2 T3 T4 T5 T6 T7 T8 T9 T10 T11 T12 T13 T14 T15]
    · isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      isplitl [T8]; · iexact T8
      isplitl [T9]; · iexact T9
      isplitl [T10]; · iexact T10
      isplitl [T11]; · iexact T11
      isplitl [T12]; · iexact T12
      isplitl [T13]; · iexact T13
      isplitl [T14]; · iexact T14
      iexact T15
    · isplitl [U0]; · iexact U0
      isplitl [U1]; · iexact U1
      isplitl [U2]; · iexact U2
      isplitl [U3]; · iexact U3
      isplitl [U4]; · iexact U4
      isplitl [U5]; · iexact U5
      isplitl [U6]; · iexact U6
      isplitl [U7]; · iexact U7
      isplitl [U8]; · iexact U8
      isplitl [U9]; · iexact U9
      isplitl [U10]; · iexact U10
      isplitl [U11]; · iexact U11
      isplitl [U12]; · iexact U12
      isplitl [U13]; · iexact U13
      isplitl [U14]; · iexact U14
      iexact U15
  isplitl [R0 R1 R2 R3 R4 R5 R6 Hbufs]
  · isplitl [R0 R1 R2 R3 R4 R5 R6]
    · iapply (ring_join (F := F) d (cV L) (jV L))
      isplitl [R0]; · (iexists _; iexact R0)
      isplitl [R1]; · (iexists _; iexact R1)
      isplitl [R2]; · (iexists _; iexact R2)
      isplitl [R3]; · (iexists _; iexact R3)
      isplitl [R4]; · (iexists _; iexact R4)
      isplitl [R5]; · (iexists _; iexact R5)
      (iexists _; iexact R6)
    · iexact Hbufs
  isplitl [S1 S2 S3 S4 S5 S6 S7 S8 S9 S10 S11 S12 S13 S14]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    iexact S14
  iexists _; isplitr
  rotate_left
  · iexact HO
  · ipureintro
    iterate 32 (refine waits_insert ?_)
    exact fun p hp => .inl hp

end Tile

end Cert.Proof.BitsCopy

end
-- ==== Proof.BitsLaunch.lean ====
/-
  The copy kernel's launch: the TensorCore hands each SparseCore its rows of the table and of the result (the rows are
  cut in two interleaved halves, then each half among sixteen subcores), every subcore copies its rows, and the rows
  come back joined: the result whole at the table's contents, the table and the index array as they were. From this,
  every weakly fair execution of the device's threads terminates without a fault in such a memory.
-/
import proofs.«213585_g19138374271248_cont_8to1_1565_24_alg».proof.Proof.BitsBody

noncomputable section

namespace Cert.Proof.BitsCopy

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          tV (Memref.isWhole_whole _) oV (Memref.isWhole_whole _) rV (Memref.isWhole_whole _) cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's rows are its sixteen subcores' rows, before and after. -/
theorem vecSplit : (K (F := F)).VecSplit' (P m) 0 := by
  intro d c
  show iprop(xOn m d (coreSet (Fin.cast nCore_zero c)) ∗ oOn d (coreSet (Fin.cast nCore_zero c)) (m (oLoc d))) ⊢ |={Set.univ}=> iprop(
      (bigSep Finset.univ fun i : Fin ((K (F := F)).nSub 0) =>
        iprop(xOn m d (tileSet (Fin.cast nCore_zero c) (Fin.cast nSub_zero i)) ∗ oOn d (tileSet (Fin.cast nCore_zero c) (Fin.cast nSub_zero i)) (m (oLoc d))))
      ∗ ((bigSep Finset.univ fun i : Fin ((K (F := F)).nSub 0) =>
          iprop(xOn m d (tileSet (Fin.cast nCore_zero c) (Fin.cast nSub_zero i)) ∗ oOn d (tileSet (Fin.cast nCore_zero c) (Fin.cast nSub_zero i)) (tab m d)))
          -∗ iprop(xOn m d (coreSet (Fin.cast nCore_zero c)) ∗ oOn d (coreSet (Fin.cast nCore_zero c)) (tab m d))))
  rw [bigSep_tasks (F := F) (fun i => iprop(xOn m d (tileSet (Fin.cast nCore_zero c) i) ∗ oOn d (tileSet (Fin.cast nCore_zero c) i) (m (oLoc d)))),
    bigSep_tasks (F := F) (fun i => iprop(xOn m d (tileSet (Fin.cast nCore_zero c) i) ∗ oOn d (tileSet (Fin.cast nCore_zero c) i) (tab m d))), bigSep_sep', bigSep_sep']
  unfold xOn oOn coreSet
  rw [pointsTo_biUnion Finset.univ (ℓ := xLoc d) (tileSet (Fin.cast nCore_zero c)) (tiles_disjoint _),
    pointsTo_biUnion Finset.univ (ℓ := oLoc d) (tileSet (Fin.cast nCore_zero c)) (tiles_disjoint _),
    pointsTo_biUnion Finset.univ (ℓ := oLoc d) (tileSet (Fin.cast nCore_zero c)) (tiles_disjoint _)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev iPts (d : Dev nD) : sProp 𝕄 := iLoc d ↦{fullShare} m (iLoc d)

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The whole table and the whole result are the two SparseCores' rows. -/
theorem cores_eq (d : Dev nD) (f : Buf (Elt F) (oLoc d)) :
    (bigSep Finset.univ fun c : Fin ((K (F := F)).nCore 0) => iprop(xOn m d (coreSet (Fin.cast nCore_zero c)) ∗ oOn d (coreSet (Fin.cast nCore_zero c)) f))
      = iprop(xPts m d ∗ oPts d f) := by
  rw [bigSep_cores (F := F) (fun c => iprop(xOn m d (coreSet c) ∗ oOn d (coreSet c) f)), bigSep_sep']
  unfold xOn oOn xPts oPts
  rw [← pointsTo_biUnion Finset.univ (ℓ := xLoc d) coreSet cores_disjoint, ← pointsTo_biUnion Finset.univ (ℓ := oLoc d) coreSet cores_disjoint, cores_cover]
  try rfl
theorem st0_eq (d : Dev nD) : (bigSep Finset.univ fun c : Fin ((K (F := F)).nCore 0) => (P m).st 0 d c) = iprop(xPts m d ∗ oPts d (m (oLoc d))) :=
  cores_eq m d _
theorem dn0_eq (d : Dev nD) : (bigSep Finset.univ fun c : Fin ((K (F := F)).nCore 0) => (P m).dn 0 d c) = iprop(xPts m d ∗ oPts d (tab m d)) :=
  cores_eq m d _

abbrev FIN (d : Dev nD) : sProp 𝕄 := iprop(iPts m d ∗ xPts m d ∗ oPts d (tab m d))

/-- @main on device `d`'s TensorCore: the one call, from the table and the result; the index array kept beside. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (oLoc d) = tab m d ∧ s'.mem.mem (iLoc d) = m (iLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := tab m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = tab m c ∧ r.2.mem (iLoc c) = m (iLoc c) ∧ r.2.mem (xLoc c) = m (xLoc c)

/-- Every weakly fair execution of the device's threads ends, without a fault, with the result at the table's contents
    and the two arguments unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.BitsCopy

end
-- ==== Proof.IdealSetup.lean ====
/-
  The copy kernel's launch set-up. Thirty-two vector subcores (two SparseCores of sixteen) each move their own 256 rows of
  the table to the same rows of the result, sixteen rows at a time, through a ring of seven sixteen-row slots of their own
  vector memory. Row offset of chunk k of subcore s of SparseCore c: 512 s + 256 c + 16 k. Here: the ghost state (the
  handshakes' rounds beside the counters of the local transfers), the arrays and their pieces as the body slices them,
  the element sets of a chunk, of a subcore's sixteen chunks and of a SparseCore's sixteen subcores, and what each
  handshake carries: a SparseCore is handed its rows of the table and of the result, a subcore its own, and both come
  back with the result's rows holding the table's.
-/
import proofs.«213585_g19138374271248_cont_8to1_1565_24_alg».proof.KernelIdeal
import Idealize.ShloMosaic.Lib.SparseCore.Launch
import Idealize.ShloMosaic.Lib.StableHlo.Run
import Idealize.ShloMosaic.Lib.Pipeline.Kit
import Idealize.ShloMosaic.Lib.Tactic
import proofs.«213585_g19138374271248_cont_8to1_1565_24_alg».proof.Proof.Gen.KernelIdeal
import proofs.«213585_g19138374271248_cont_8to1_1565_24_alg».proof.Proof.Gen.KernelIdeal.Skeleton

noncomputable section

namespace Cert.Proof.IdealCopy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The index array (never touched), the table and the result, as locations of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev tV : Memref sig .scVector .hbm S8192x1024 .f32 := Memref.whole main_arg1_scv
abbrev oV : Memref sig .scVector .hbm S8192x1024 .f32 := Memref.whole main_v0_scv
abbrev rV : Memref sig .scVector .vmem S7x16x1024 .f32 := Memref.whole cc0_scratch0

/-- Chunk `k` (sixteen rows) of the table and of the result as the subcore at `L` slices them, and slot `b` of its ring. -/
abbrev tC0 (L : grid0.Coords) : Memref sig .scVector .hbm S16x1024 .f32 := (tV).slice (Rect.unit (s := S8192x1024) (k0_off1 L 0#32) S16x1024.size (k0_off1_inb L 0)) (fun _ => rfl)
abbrev tC1 (L : grid0.Coords) : Memref sig .scVector .hbm S16x1024 .f32 := (tV).slice (Rect.unit (s := S8192x1024) (k0_off1 L 16#32) S16x1024.size (k0_off1_inb L 1)) (fun _ => rfl)
abbrev tC2 (L : grid0.Coords) : Memref sig .scVector .hbm S16x1024 .f32 := (tV).slice (Rect.unit (s := S8192x1024) (k0_off1 L 32#32) S16x1024.size (k0_off1_inb L 2)) (fun _ => rfl)
abbrev tC3 (L : grid0.Coords) : Memref sig .scVector .hbm S16x1024 .f32 := (tV).slice (Rect.unit (s := S8192x1024) (k0_off1 L 48#32) S16x1024.size (k0_off1_inb L 3)) (fun _ => rfl)
abbrev tC4 (L : grid0.Coords) : Memref sig .scVector .hbm S16x1024 .f32 := (tV).slice (Rect.unit (s := S8192x1024) (k0_off1 L 64#32) S16x1024.size (k0_off1_inb L 4)) (fun _ => rfl)
abbrev tC5 (L : grid0.Coords) : Memref sig .scVector .hbm S16x1024 .f32 := (tV).slice (Rect.unit (s := S8192x1024) (k0_off1 L 80#32) S16x1024.size (k0_off1_inb L 5)) (fun _ => rfl)
abbrev tC6 (L : grid0.Coords) : Memref sig .scVector .hbm S16x1024 .f32 := (tV).slice (Rect.unit (s := S8192x1024) (k0_off1 L 96#32) S16x1024.size (k0_off1_inb L 6)) (fun _ => rfl)
abbrev tC7 (L : grid0.Coords) : Memref sig .scVector .hbm S16x1024 .f32 := (tV).slice (Rect.unit (s := S8192x1024) (k0_off1 L 112#32) S16x1024.size (k0_off1_inb L 7)) (fun _ => rfl)
abbrev tC8 (L : grid0.Coords) : Memref sig .scVector .hbm S16x1024 .f32 := (tV).slice (Rect.unit (s := S8192x1024) (k0_off1 L 128#32) S16x1024.size (k0_off1_inb L 8)) (fun _ => rfl)
abbrev tC9 (L : grid0.Coords) : Memref sig .scVector .hbm S16x1024 .f32 := (tV).slice (Rect.unit (s := S8192x1024) (k0_off1 L 144#32) S16x1024.size (k0_off1_inb L 9)) (fun _ => rfl)
abbrev tC10 (L : grid0.Coords) : Memref sig .scVector .hbm S16x1024 .f32 := (tV).slice (Rect.unit (s := S8192x1024) (k0_off1 L 160#32) S16x1024.size (k0_off1_inb L 10)) (fun _ => rfl)
abbrev tC11 (L : grid0.Coords) : Memref sig .scVector .hbm S16x1024 .f32 := (tV).slice (Rect.unit (s := S8192x1024) (k0_off1 L 176#32) S16x1024.size (k0_off1_inb L 11)) (fun _ => rfl)
abbrev tC12 (L : grid0.Coords) : Memref sig .scVector .hbm S16x1024 .f32 := (tV).slice (Rect.unit (s := S8192x1024) (k0_off1 L 192#32) S16x1024.size (k0_off1_inb L 12)) (fun _ => rfl)
abbrev tC13 (L : grid0.Coords) : Memref sig .scVector .hbm S16x1024 .f32 := (tV).slice (Rect.unit (s := S8192x1024) (k0_off1 L 208#32) S16x1024.size (k0_off1_inb L 13)) (fun _ => rfl)
abbrev tC14 (L : grid0.Coords) : Memref sig .scVector .hbm S16x1024 .f32 := (tV).slice (Rect.unit (s := S8192x1024) (k0_off1 L 224#32) S16x1024.size (k0_off1_inb L 14)) (fun _ => rfl)
abbrev tC15 (L : grid0.Coords) : Memref sig .scVector .hbm S16x1024 .f32 := (tV).slice (Rect.unit (s := S8192x1024) (k0_off1 L 240#32) S16x1024.size (k0_off1_inb L 15)) (fun _ => rfl)
abbrev oC0 (L : grid0.Coords) : Memref sig .scVector .hbm S16x1024 .f32 := (oV).slice (Rect.unit (s := S8192x1024) (k0_off1 L 0#32) S16x1024.size (k0_off1_inb L 0)) (fun _ => rfl)
abbrev oC1 (L : grid0.Coords) : Memref sig .scVector .hbm S16x1024 .f32 := (oV).slice (Rect.unit (s := S8192x1024) (k0_off1 L 16#32) S16x1024.size (k0_off1_inb L 1)) (fun _ => rfl)
abbrev oC2 (L : grid0.Coords) : Memref sig .scVector .hbm S16x1024 .f32 := (oV).slice (Rect.unit (s := S8192x1024) (k0_off1 L 32#32) S16x1024.size (k0_off1_inb L 2)) (fun _ => rfl)
abbrev oC3 (L : grid0.Coords) : Memref sig .scVector .hbm S16x1024 .f32 := (oV).slice (Rect.unit (s := S8192x1024) (k0_off1 L 48#32) S16x1024.size (k0_off1_inb L 3)) (fun _ => rfl)
abbrev oC4 (L : grid0.Coords) : Memref sig .scVector .hbm S16x1024 .f32 := (oV).slice (Rect.unit (s := S8192x1024) (k0_off1 L 64#32) S16x1024.size (k0_off1_inb L 4)) (fun _ => rfl)
abbrev oC5 (L : grid0.Coords) : Memref sig .scVector .hbm S16x1024 .f32 := (oV).slice (Rect.unit (s := S8192x1024) (k0_off1 L 80#32) S16x1024.size (k0_off1_inb L 5)) (fun _ => rfl)
abbrev oC6 (L : grid0.Coords) : Memref sig .scVector .hbm S16x1024 .f32 := (oV).slice (Rect.unit (s := S8192x1024) (k0_off1 L 96#32) S16x1024.size (k0_off1_inb L 6)) (fun _ => rfl)
abbrev oC7 (L : grid0.Coords) : Memref sig .scVector .hbm S16x1024 .f32 := (oV).slice (Rect.unit (s := S8192x1024) (k0_off1 L 112#32) S16x1024.size (k0_off1_inb L 7)) (fun _ => rfl)
abbrev oC8 (L : grid0.Coords) : Memref sig .scVector .hbm S16x1024 .f32 := (oV).slice (Rect.unit (s := S8192x1024) (k0_off1 L 128#32) S16x1024.size (k0_off1_inb L 8)) (fun _ => rfl)
abbrev oC9 (L : grid0.Coords) : Memref sig .scVector .hbm S16x1024 .f32 := (oV).slice (Rect.unit (s := S8192x1024) (k0_off1 L 144#32) S16x1024.size (k0_off1_inb L 9)) (fun _ => rfl)
abbrev oC10 (L : grid0.Coords) : Memref sig .scVector .hbm S16x1024 .f32 := (oV).slice (Rect.unit (s := S8192x1024) (k0_off1 L 160#32) S16x1024.size (k0_off1_inb L 10)) (fun _ => rfl)
abbrev oC11 (L : grid0.Coords) : Memref sig .scVector .hbm S16x1024 .f32 := (oV).slice (Rect.unit (s := S8192x1024) (k0_off1 L 176#32) S16x1024.size (k0_off1_inb L 11)) (fun _ => rfl)
abbrev oC12 (L : grid0.Coords) : Memref sig .scVector .hbm S16x1024 .f32 := (oV).slice (Rect.unit (s := S8192x1024) (k0_off1 L 192#32) S16x1024.size (k0_off1_inb L 12)) (fun _ => rfl)
abbrev oC13 (L : grid0.Coords) : Memref sig .scVector .hbm S16x1024 .f32 := (oV).slice (Rect.unit (s := S8192x1024) (k0_off1 L 208#32) S16x1024.size (k0_off1_inb L 13)) (fun _ => rfl)
abbrev oC14 (L : grid0.Coords) : Memref sig .scVector .hbm S16x1024 .f32 := (oV).slice (Rect.unit (s := S8192x1024) (k0_off1 L 224#32) S16x1024.size (k0_off1_inb L 14)) (fun _ => rfl)
abbrev oC15 (L : grid0.Coords) : Memref sig .scVector .hbm S16x1024 .f32 := (oV).slice (Rect.unit (s := S8192x1024) (k0_off1 L 240#32) S16x1024.size (k0_off1_inb L 15)) (fun _ => rfl)
abbrev sl0 : Memref sig .scVector .vmem S16x1024 .f32 := ((rV).slice (Rect.unit (s := S7x16x1024) ![0, 0, 0] S1x16x1024.size inb_S7x16x1024_S1x16x1024_0_0_0) (fun _ => rfl)).squeeze S16x1024 squeezes_S1x16x1024_S16x1024
abbrev sl1 : Memref sig .scVector .vmem S16x1024 .f32 := ((rV).slice (Rect.unit (s := S7x16x1024) ![1, 0, 0] S1x16x1024.size inb_S7x16x1024_S1x16x1024_1_0_0) (fun _ => rfl)).squeeze S16x1024 squeezes_S1x16x1024_S16x1024
abbrev sl2 : Memref sig .scVector .vmem S16x1024 .f32 := ((rV).slice (Rect.unit (s := S7x16x1024) ![2, 0, 0] S1x16x1024.size inb_S7x16x1024_S1x16x1024_2_0_0) (fun _ => rfl)).squeeze S16x1024 squeezes_S1x16x1024_S16x1024
abbrev sl3 : Memref sig .scVector .vmem S16x1024 .f32 := ((rV).slice (Rect.unit (s := S7x16x1024) ![3, 0, 0] S1x16x1024.size inb_S7x16x1024_S1x16x1024_3_0_0) (fun _ => rfl)).squeeze S16x1024 squeezes_S1x16x1024_S16x1024
abbrev sl4 : Memref sig .scVector .vmem S16x1024 .f32 := ((rV).slice (Rect.unit (s := S7x16x1024) ![4, 0, 0] S1x16x1024.size inb_S7x16x1024_S1x16x1024_4_0_0) (fun _ => rfl)).squeeze S16x1024 squeezes_S1x16x1024_S16x1024
abbrev sl5 : Memref sig .scVector .vmem S16x1024 .f32 := ((rV).slice (Rect.unit (s := S7x16x1024) ![5, 0, 0] S1x16x1024.size inb_S7x16x1024_S1x16x1024_5_0_0) (fun _ => rfl)).squeeze S16x1024 squeezes_S1x16x1024_S16x1024
abbrev sl6 : Memref sig .scVector .vmem S16x1024 .f32 := ((rV).slice (Rect.unit (s := S7x16x1024) ![6, 0, 0] S1x16x1024.size inb_S7x16x1024_S1x16x1024_6_0_0) (fun _ => rfl)).squeeze S16x1024 squeezes_S1x16x1024_S16x1024

/-- The same chunk for a variable `k`. -/
abbrev tCh (L : grid0.Coords) (k : Fin 16) : Memref sig .scVector .hbm S16x1024 .f32 :=
  (tV).slice (Rect.unit (s := S8192x1024) (k0_off1 L (BitVec.ofNat 32 (16 * k.val))) S16x1024.size (k0_off1_inb L k)) (fun _ => rfl)

variable [FloatOps F]

/-! ## Which rows are whose

The 8192 rows are 512 chunks of sixteen. Chunk `k` of subcore `s` of SparseCore `c` is chunk `32 s + 16 c + k`:
a subcore's sixteen chunks are consecutive (256 rows), the two SparseCores' subcores interleave. -/

omit [FloatOps F] in
theorem hdiv : 512 ∣ S8192x1024.size 0 := ⟨16, rfl⟩
abbrev chunkRect (g : Fin 512) : Rect S8192x1024 := Rect.part (s := S8192x1024) (a₀ := 0) hdiv g
abbrev chunk (g : Fin 512) : Finset S8192x1024.Idx := ((tV : Memref sig .scVector .hbm S8192x1024 .f32).view.slice (chunkRect g)).set

def gIx (c : Fin 2) (s : Fin 16) (k : Fin 16) : Fin 512 := ⟨32 * s.val + 16 * c.val + k.val, by omega⟩

def tileSet (c : Fin 2) (s : Fin 16) : Finset S8192x1024.Idx := Finset.univ.biUnion fun k : Fin 16 => chunk (gIx c s k)
def coreSet (c : Fin 2) : Finset S8192x1024.Idx := Finset.univ.biUnion fun s : Fin 16 => tileSet c s

omit [FloatOps F] in
theorem chunk_eq (g : Fin 512) : chunk g = (chunkRect g).set := by
  show ((View.whole (main_arg1_scv : Ref sig .scVector)).slice (chunkRect g)).set = _
  rw [View.set_slice]; exact Finset.map_refl
omit [FloatOps F] in
theorem chunk_disjoint {g g' : Fin 512} (h : g ≠ g') : Disjoint (chunk g) (chunk g') := by
  rw [chunk_eq, chunk_eq]; exact Rect.part_disjoint hdiv h
omit [FloatOps F] in
theorem gIx_ne {c c' : Fin 2} {s s' : Fin 16} {k k' : Fin 16} (h : c ≠ c' ∨ s ≠ s' ∨ k ≠ k') : gIx c s k ≠ gIx c' s' k' := by
  intro e
  have e' : 32 * s.val + 16 * c.val + k.val = 32 * s'.val + 16 * c'.val + k'.val := congrArg Fin.val e
  have hc := c.isLt; have hc' := c'.isLt; have hk := k.isLt; have hk' := k'.isLt
  rcases h with h | h | h
  · exact h (Fin.ext (by omega))
  · exact h (Fin.ext (by omega))
  · exact h (Fin.ext (by omega))
omit [FloatOps F] in
theorem chunks_disjoint (c : Fin 2) (s : Fin 16) :
    ∀ k ∈ (Finset.univ : Finset (Fin 16)), ∀ k' ∈ (Finset.univ : Finset (Fin 16)), k ≠ k' → Disjoint (chunk (gIx c s k)) (chunk (gIx c s k')) :=
  fun _ _ _ _ h => chunk_disjoint (gIx_ne (.inr (.inr h)))
omit [FloatOps F] in
theorem tiles_disjoint (c : Fin 2) :
    ∀ s ∈ (Finset.univ : Finset (Fin 16)), ∀ s' ∈ (Finset.univ : Finset (Fin 16)), s ≠ s' → Disjoint (tileSet c s) (tileSet c s') := by
  intro s _ s' _ h
  unfold tileSet
  exact (Finset.disjoint_biUnion_left _ _ _).mpr fun k _ => (Finset.disjoint_biUnion_right _ _ _).mpr fun k' _ => chunk_disjoint (gIx_ne (.inr (.inl h)))
omit [FloatOps F] in
theorem cores_disjoint :
    ∀ c ∈ (Finset.univ : Finset (Fin 2)), ∀ c' ∈ (Finset.univ : Finset (Fin 2)), c ≠ c' → Disjoint (coreSet c) (coreSet c') := by
  intro c _ c' _ h
  unfold coreSet tileSet
  exact (Finset.disjoint_biUnion_left _ _ _).mpr fun s _ => (Finset.disjoint_biUnion_right _ _ _).mpr fun s' _ =>
    (Finset.disjoint_biUnion_left _ _ _).mpr fun k _ => (Finset.disjoint_biUnion_right _ _ _).mpr fun k' _ => chunk_disjoint (gIx_ne (.inl h))
omit [FloatOps F] in
/-- Every row is some SparseCore's: chunk `g` is chunk `g % 16` of subcore `g / 32` of SparseCore `g % 32 / 16`. -/
theorem cores_cover : (Finset.univ : Finset (Fin 2)).biUnion coreSet = Finset.univ := by
  ext i
  simp only [Finset.mem_biUnion, Finset.mem_univ, true_and, iff_true]
  obtain ⟨g, hg⟩ := Rect.exists_mem_part hdiv i
  have hg512 := g.isLt
  refine ⟨⟨g.val % 32 / 16, by omega⟩, ?_⟩
  unfold coreSet tileSet
  simp only [Finset.mem_biUnion, Finset.mem_univ, true_and]
  refine ⟨⟨g.val / 32, by omega⟩, ⟨g.val % 16, by omega⟩, ?_⟩
  rw [chunk_eq]
  have e : gIx ⟨g.val % 32 / 16, by omega⟩ ⟨g.val / 32, by omega⟩ ⟨g.val % 16, by omega⟩ = g := Fin.ext (by simp only [gIx]; omega)
  rw [e]; exact hg

/-! ## What the handshakes carry -/

/-- The table's contents, as contents of the result. -/
def tab (d : Dev nD) : Buf (Elt F) (oLoc d) := fun i => m (xLoc d) i

abbrev xOn (d : Dev nD) (I : Finset S8192x1024.Idx) : sProp 𝕄 := xLoc d ↦[I]{fullShare} m (xLoc d)
abbrev oOn (d : Dev nD) (I : Finset S8192x1024.Idx) (f : Buf (Elt F) (oLoc d)) : sProp 𝕄 := oLoc d ↦[I]{fullShare} f
abbrev xPts (d : Dev nD) : sProp 𝕄 := xLoc d ↦{fullShare} m (xLoc d)
abbrev oPts (d : Dev nD) (f : Buf (Elt F) (oLoc d)) : sProp 𝕄 := oLoc d ↦{fullShare} f

/-- A SparseCore is handed its rows of the table and of the result, a subcore its own; they come back with the
    result's rows at the table's. -/
def P : (K (F := F)).Pay (nD := nD) (Val := Elt F) (Name := ℕ) (U := UU) where
  st := fun q d c => match q with
    | 0 => iprop(xOn m d (coreSet (Fin.cast nCore_zero c)) ∗ oOn d (coreSet (Fin.cast nCore_zero c)) (m (oLoc d)))
  dn := fun q d c => match q with
    | 0 => iprop(xOn m d (coreSet (Fin.cast nCore_zero c)) ∗ oOn d (coreSet (Fin.cast nCore_zero c)) (tab m d))
  go := fun q d c i => match q with
    | 0 => iprop(xOn m d (tileSet (Fin.cast nCore_zero c) (Fin.cast nSub_zero i)) ∗ oOn d (tileSet (Fin.cast nCore_zero c) (Fin.cast nSub_zero i)) (m (oLoc d)))
  td := fun q d c i => match q with
    | 0 => iprop(xOn m d (tileSet (Fin.cast nCore_zero c) (Fin.cast nSub_zero i)) ∗ oOn d (tileSet (Fin.cast nCore_zero c) (Fin.cast nSub_zero i)) (tab m d))
  x := fun _ _ => iprop(emp)

instance P_storable : (P (F := F) m).IsStorable where
  st q d c := match q with
    | 0 => (inferInstance : BI.Storable (upEmb : UEmb _ 𝕄) iprop(xOn m d (coreSet (Fin.cast nCore_zero c)) ∗ oOn d (coreSet (Fin.cast nCore_zero c)) (m (oLoc d))))
  dn q d c := match q with
    | 0 => (inferInstance : BI.Storable (upEmb : UEmb _ 𝕄) iprop(xOn m d (coreSet (Fin.cast nCore_zero c)) ∗ oOn d (coreSet (Fin.cast nCore_zero c)) (tab m d)))
  go q d c i := match q with
    | 0 => (inferInstance : BI.Storable (upEmb : UEmb _ 𝕄)
        iprop(xOn m d (tileSet (Fin.cast nCore_zero c) (Fin.cast nSub_zero i)) ∗ oOn d (tileSet (Fin.cast nCore_zero c) (Fin.cast nSub_zero i)) (m (oLoc d))))
  td q d c i := match q with
    | 0 => (inferInstance : BI.Storable (upEmb : UEmb _ 𝕄)
        iprop(xOn m d (tileSet (Fin.cast nCore_zero c) (Fin.cast nSub_zero i)) ∗ oOn d (tileSet (Fin.cast nCore_zero c) (Fin.cast nSub_zero i)) (tab m d)))

/-! ## Families over small index types, written out -/

omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## A subcore's pieces as the body names them -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

omit [FloatOps F] in
/-- The rectangle the body slices for chunk `k` is chunk `32 s + 16 c + k` of the 512. -/
theorem rect_tCh (k : Fin 16) :
    Rect.unit (s := S8192x1024) (k0_off1 L (BitVec.ofNat 32 (16 * k.val))) S16x1024.size (k0_off1_inb L k) = chunkRect (gIx (cL L) (jL L) k) := by
  unfold chunkRect Rect.part Rect.block
  congr 1 <;> funext a
  · rw [k0_off1_eq]
    match a with
    | 0 => simp [Shape.partIx, Shape.partSize, gIx]; omega
    | 1 => simp [Shape.partIx, Shape.partSize]
  · match a with
    | 0 => simp [Shape.partSize]
    | 1 => simp [Shape.partSize]

omit [FloatOps F] in
theorem set_tCh (k : Fin 16) : (tCh L k).view.set = chunk (gIx (cL L) (jL L) k) := by
  show ((tV : Memref sig .scVector .hbm S8192x1024 .f32).view.slice (Rect.unit (s := S8192x1024) (k0_off1 L (BitVec.ofNat 32 (16 * k.val))) S16x1024.size (k0_off1_inb L k))).set
    = ((tV : Memref sig .scVector .hbm S8192x1024 .f32).view.slice (chunkRect (gIx (cL L) (jL L) k))).set
  rw [rect_tCh]
omit [FloatOps F] in
theorem set_oCh (k : Fin 16) :
    ((oV : Memref sig .scVector .hbm S8192x1024 .f32).slice (Rect.unit (s := S8192x1024) (k0_off1 L (BitVec.ofNat 32 (16 * k.val))) S16x1024.size (k0_off1_inb L k)) (fun _ => rfl)).view.set
      = chunk (gIx (cL L) (jL L) k) := by
  show ((oV : Memref sig .scVector .hbm S8192x1024 .f32).view.slice (Rect.unit (s := S8192x1024) (k0_off1 L (BitVec.ofNat 32 (16 * k.val))) S16x1024.size (k0_off1_inb L k))).set
    = ((tV : Memref sig .scVector .hbm S8192x1024 .f32).view.slice (chunkRect (gIx (cL L) (jL L) k))).set
  rw [rect_tCh]; rfl

/-! Chunk `k` of the table and of the result, held under the memref the body slices for it, is the array held on
    that chunk's elements. -/
omit [FloatOps F] in
theorem pts_tC0 (f : Buf (Elt F) (xLoc d)) :
    ((tC0 L).view.loc (V d (cV L) (jV L)) ↦[(tC0 L).view.set]{fullShare} f : sProp 𝕄) = xLoc d ↦[chunk (gIx (cL L) (jL L) 0)]{fullShare} f := by
  rw [show (tC0 L).view.set = chunk (gIx (cL L) (jL L) 0) from set_tCh L 0]
omit [FloatOps F] in
theorem pts_oC0 (f : Buf (Elt F) (oLoc d)) :
    ((oC0 L).view.loc (V d (cV L) (jV L)) ↦[(oC0 L).view.set]{fullShare} f : sProp 𝕄) = oLoc d ↦[chunk (gIx (cL L) (jL L) 0)]{fullShare} f := by
  rw [show (oC0 L).view.set = chunk (gIx (cL L) (jL L) 0) from set_oCh L 0]
omit [FloatOps F] in
theorem pts_tC1 (f : Buf (Elt F) (xLoc d)) :
    ((tC1 L).view.loc (V d (cV L) (jV L)) ↦[(tC1 L).view.set]{fullShare} f : sProp 𝕄) = xLoc d ↦[chunk (gIx (cL L) (jL L) 1)]{fullShare} f := by
  rw [show (tC1 L).view.set = chunk (gIx (cL L) (jL L) 1) from set_tCh L 1]
omit [FloatOps F] in
theorem pts_oC1 (f : Buf (Elt F) (oLoc d)) :
    ((oC1 L).view.loc (V d (cV L) (jV L)) ↦[(oC1 L).view.set]{fullShare} f : sProp 𝕄) = oLoc d ↦[chunk (gIx (cL L) (jL L) 1)]{fullShare} f := by
  rw [show (oC1 L).view.set = chunk (gIx (cL L) (jL L) 1) from set_oCh L 1]
omit [FloatOps F] in
theorem pts_tC2 (f : Buf (Elt F) (xLoc d)) :
    ((tC2 L).view.loc (V d (cV L) (jV L)) ↦[(tC2 L).view.set]{fullShare} f : sProp 𝕄) = xLoc d ↦[chunk (gIx (cL L) (jL L) 2)]{fullShare} f := by
  rw [show (tC2 L).view.set = chunk (gIx (cL L) (jL L) 2) from set_tCh L 2]
omit [FloatOps F] in
theorem pts_oC2 (f : Buf (Elt F) (oLoc d)) :
    ((oC2 L).view.loc (V d (cV L) (jV L)) ↦[(oC2 L).view.set]{fullShare} f : sProp 𝕄) = oLoc d ↦[chunk (gIx (cL L) (jL L) 2)]{fullShare} f := by
  rw [show (oC2 L).view.set = chunk (gIx (cL L) (jL L) 2) from set_oCh L 2]
omit [FloatOps F] in
theorem pts_tC3 (f : Buf (Elt F) (xLoc d)) :
    ((tC3 L).view.loc (V d (cV L) (jV L)) ↦[(tC3 L).view.set]{fullShare} f : sProp 𝕄) = xLoc d ↦[chunk (gIx (cL L) (jL L) 3)]{fullShare} f := by
  rw [show (tC3 L).view.set = chunk (gIx (cL L) (jL L) 3) from set_tCh L 3]
omit [FloatOps F] in
theorem pts_oC3 (f : Buf (Elt F) (oLoc d)) :
    ((oC3 L).view.loc (V d (cV L) (jV L)) ↦[(oC3 L).view.set]{fullShare} f : sProp 𝕄) = oLoc d ↦[chunk (gIx (cL L) (jL L) 3)]{fullShare} f := by
  rw [show (oC3 L).view.set = chunk (gIx (cL L) (jL L) 3) from set_oCh L 3]
omit [FloatOps F] in
theorem pts_tC4 (f : Buf (Elt F) (xLoc d)) :
    ((tC4 L).view.loc (V d (cV L) (jV L)) ↦[(tC4 L).view.set]{fullShare} f : sProp 𝕄) = xLoc d ↦[chunk (gIx (cL L) (jL L) 4)]{fullShare} f := by
  rw [show (tC4 L).view.set = chunk (gIx (cL L) (jL L) 4) from set_tCh L 4]
omit [FloatOps F] in
theorem pts_oC4 (f : Buf (Elt F) (oLoc d)) :
    ((oC4 L).view.loc (V d (cV L) (jV L)) ↦[(oC4 L).view.set]{fullShare} f : sProp 𝕄) = oLoc d ↦[chunk (gIx (cL L) (jL L) 4)]{fullShare} f := by
  rw [show (oC4 L).view.set = chunk (gIx (cL L) (jL L) 4) from set_oCh L 4]
omit [FloatOps F] in
theorem pts_tC5 (f : Buf (Elt F) (xLoc d)) :
    ((tC5 L).view.loc (V d (cV L) (jV L)) ↦[(tC5 L).view.set]{fullShare} f : sProp 𝕄) = xLoc d ↦[chunk (gIx (cL L) (jL L) 5)]{fullShare} f := by
  rw [show (tC5 L).view.set = chunk (gIx (cL L) (jL L) 5) from set_tCh L 5]
omit [FloatOps F] in
theorem pts_oC5 (f : Buf (Elt F) (oLoc d)) :
    ((oC5 L).view.loc (V d (cV L) (jV L)) ↦[(oC5 L).view.set]{fullShare} f : sProp 𝕄) = oLoc d ↦[chunk (gIx (cL L) (jL L) 5)]{fullShare} f := by
  rw [show (oC5 L).view.set = chunk (gIx (cL L) (jL L) 5) from set_oCh L 5]
omit [FloatOps F] in
theorem pts_tC6 (f : Buf (Elt F) (xLoc d)) :
    ((tC6 L).view.loc (V d (cV L) (jV L)) ↦[(tC6 L).view.set]{fullShare} f : sProp 𝕄) = xLoc d ↦[chunk (gIx (cL L) (jL L) 6)]{fullShare} f := by
  rw [show (tC6 L).view.set = chunk (gIx (cL L) (jL L) 6) from set_tCh L 6]
omit [FloatOps F] in
theorem pts_oC6 (f : Buf (Elt F) (oLoc d)) :
    ((oC6 L).view.loc (V d (cV L) (jV L)) ↦[(oC6 L).view.set]{fullShare} f : sProp 𝕄) = oLoc d ↦[chunk (gIx (cL L) (jL L) 6)]{fullShare} f := by
  rw [show (oC6 L).view.set = chunk (gIx (cL L) (jL L) 6) from set_oCh L 6]
omit [FloatOps F] in
theorem pts_tC7 (f : Buf (Elt F) (xLoc d)) :
    ((tC7 L).view.loc (V d (cV L) (jV L)) ↦[(tC7 L).view.set]{fullShare} f : sProp 𝕄) = xLoc d ↦[chunk (gIx (cL L) (jL L) 7)]{fullShare} f := by
  rw [show (tC7 L).view.set = chunk (gIx (cL L) (jL L) 7) from set_tCh L 7]
omit [FloatOps F] in
theorem pts_oC7 (f : Buf (Elt F) (oLoc d)) :
    ((oC7 L).view.loc (V d (cV L) (jV L)) ↦[(oC7 L).view.set]{fullShare} f : sProp 𝕄) = oLoc d ↦[chunk (gIx (cL L) (jL L) 7)]{fullShare} f := by
  rw [show (oC7 L).view.set = chunk (gIx (cL L) (jL L) 7) from set_oCh L 7]
omit [FloatOps F] in
theorem pts_tC8 (f : Buf (Elt F) (xLoc d)) :
    ((tC8 L).view.loc (V d (cV L) (jV L)) ↦[(tC8 L).view.set]{fullShare} f : sProp 𝕄) = xLoc d ↦[chunk (gIx (cL L) (jL L) 8)]{fullShare} f := by
  rw [show (tC8 L).view.set = chunk (gIx (cL L) (jL L) 8) from set_tCh L 8]
omit [FloatOps F] in
theorem pts_oC8 (f : Buf (Elt F) (oLoc d)) :
    ((oC8 L).view.loc (V d (cV L) (jV L)) ↦[(oC8 L).view.set]{fullShare} f : sProp 𝕄) = oLoc d ↦[chunk (gIx (cL L) (jL L) 8)]{fullShare} f := by
  rw [show (oC8 L).view.set = chunk (gIx (cL L) (jL L) 8) from set_oCh L 8]
omit [FloatOps F] in
theorem pts_tC9 (f : Buf (Elt F) (xLoc d)) :
    ((tC9 L).view.loc (V d (cV L) (jV L)) ↦[(tC9 L).view.set]{fullShare} f : sProp 𝕄) = xLoc d ↦[chunk (gIx (cL L) (jL L) 9)]{fullShare} f := by
  rw [show (tC9 L).view.set = chunk (gIx (cL L) (jL L) 9) from set_tCh L 9]
omit [FloatOps F] in
theorem pts_oC9 (f : Buf (Elt F) (oLoc d)) :
    ((oC9 L).view.loc (V d (cV L) (jV L)) ↦[(oC9 L).view.set]{fullShare} f : sProp 𝕄) = oLoc d ↦[chunk (gIx (cL L) (jL L) 9)]{fullShare} f := by
  rw [show (oC9 L).view.set = chunk (gIx (cL L) (jL L) 9) from set_oCh L 9]
omit [FloatOps F] in
theorem pts_tC10 (f : Buf (Elt F) (xLoc d)) :
    ((tC10 L).view.loc (V d (cV L) (jV L)) ↦[(tC10 L).view.set]{fullShare} f : sProp 𝕄) = xLoc d ↦[chunk (gIx (cL L) (jL L) 10)]{fullShare} f := by
  rw [show (tC10 L).view.set = chunk (gIx (cL L) (jL L) 10) from set_tCh L 10]
omit [FloatOps F] in
theorem pts_oC10 (f : Buf (Elt F) (oLoc d)) :
    ((oC10 L).view.loc (V d (cV L) (jV L)) ↦[(oC10 L).view.set]{fullShare} f : sProp 𝕄) = oLoc d ↦[chunk (gIx (cL L) (jL L) 10)]{fullShare} f := by
  rw [show (oC10 L).view.set = chunk (gIx (cL L) (jL L) 10) from set_oCh L 10]
omit [FloatOps F] in
theorem pts_tC11 (f : Buf (Elt F) (xLoc d)) :
    ((tC11 L).view.loc (V d (cV L) (jV L)) ↦[(tC11 L).view.set]{fullShare} f : sProp 𝕄) = xLoc d ↦[chunk (gIx (cL L) (jL L) 11)]{fullShare} f := by
  rw [show (tC11 L).view.set = chunk (gIx (cL L) (jL L) 11) from set_tCh L 11]
omit [FloatOps F] in
theorem pts_oC11 (f : Buf (Elt F) (oLoc d)) :
    ((oC11 L).view.loc (V d (cV L) (jV L)) ↦[(oC11 L).view.set]{fullShare} f : sProp 𝕄) = oLoc d ↦[chunk (gIx (cL L) (jL L) 11)]{fullShare} f := by
  rw [show (oC11 L).view.set = chunk (gIx (cL L) (jL L) 11) from set_oCh L 11]
omit [FloatOps F] in
theorem pts_tC12 (f : Buf (Elt F) (xLoc d)) :
    ((tC12 L).view.loc (V d (cV L) (jV L)) ↦[(tC12 L).view.set]{fullShare} f : sProp 𝕄) = xLoc d ↦[chunk (gIx (cL L) (jL L) 12)]{fullShare} f := by
  rw [show (tC12 L).view.set = chunk (gIx (cL L) (jL L) 12) from set_tCh L 12]
omit [FloatOps F] in
theorem pts_oC12 (f : Buf (Elt F) (oLoc d)) :
    ((oC12 L).view.loc (V d (cV L) (jV L)) ↦[(oC12 L).view.set]{fullShare} f : sProp 𝕄) = oLoc d ↦[chunk (gIx (cL L) (jL L) 12)]{fullShare} f := by
  rw [show (oC12 L).view.set = chunk (gIx (cL L) (jL L) 12) from set_oCh L 12]
omit [FloatOps F] in
theorem pts_tC13 (f : Buf (Elt F) (xLoc d)) :
    ((tC13 L).view.loc (V d (cV L) (jV L)) ↦[(tC13 L).view.set]{fullShare} f : sProp 𝕄) = xLoc d ↦[chunk (gIx (cL L) (jL L) 13)]{fullShare} f := by
  rw [show (tC13 L).view.set = chunk (gIx (cL L) (jL L) 13) from set_tCh L 13]
omit [FloatOps F] in
theorem pts_oC13 (f : Buf (Elt F) (oLoc d)) :
    ((oC13 L).view.loc (V d (cV L) (jV L)) ↦[(oC13 L).view.set]{fullShare} f : sProp 𝕄) = oLoc d ↦[chunk (gIx (cL L) (jL L) 13)]{fullShare} f := by
  rw [show (oC13 L).view.set = chunk (gIx (cL L) (jL L) 13) from set_oCh L 13]
omit [FloatOps F] in
theorem pts_tC14 (f : Buf (Elt F) (xLoc d)) :
    ((tC14 L).view.loc (V d (cV L) (jV L)) ↦[(tC14 L).view.set]{fullShare} f : sProp 𝕄) = xLoc d ↦[chunk (gIx (cL L) (jL L) 14)]{fullShare} f := by
  rw [show (tC14 L).view.set = chunk (gIx (cL L) (jL L) 14) from set_tCh L 14]
omit [FloatOps F] in
theorem pts_oC14 (f : Buf (Elt F) (oLoc d)) :
    ((oC14 L).view.loc (V d (cV L) (jV L)) ↦[(oC14 L).view.set]{fullShare} f : sProp 𝕄) = oLoc d ↦[chunk (gIx (cL L) (jL L) 14)]{fullShare} f := by
  rw [show (oC14 L).view.set = chunk (gIx (cL L) (jL L) 14) from set_oCh L 14]
omit [FloatOps F] in
theorem pts_tC15 (f : Buf (Elt F) (xLoc d)) :
    ((tC15 L).view.loc (V d (cV L) (jV L)) ↦[(tC15 L).view.set]{fullShare} f : sProp 𝕄) = xLoc d ↦[chunk (gIx (cL L) (jL L) 15)]{fullShare} f := by
  rw [show (tC15 L).view.set = chunk (gIx (cL L) (jL L) 15) from set_tCh L 15]
omit [FloatOps F] in
theorem pts_oC15 (f : Buf (Elt F) (oLoc d)) :
    ((oC15 L).view.loc (V d (cV L) (jV L)) ↦[(oC15 L).view.set]{fullShare} f : sProp 𝕄) = oLoc d ↦[chunk (gIx (cL L) (jL L) 15)]{fullShare} f := by
  rw [show (oC15 L).view.set = chunk (gIx (cL L) (jL L) 15) from set_oCh L 15]

end Tile

end Cert.Proof.IdealCopy

end
-- ==== Proof.IdealPieces.lean ====
/-
  A vector subcore's own storage as the copy kernel's body names it: the ring's seven sixteen-row slots (the scratch
  buffer cut along its first axis), the fourteen transfer semaphores (seven for the copies into the ring, seven for the
  copies out of it), and the way back from the slots to the scratch buffer whole.
-/
import proofs.«213585_g19138374271248_cont_8to1_1565_24_alg».proof.Proof.IdealSetup

noncomputable section

namespace Cert.Proof.IdealCopy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The ring's slots -/

theorem hdiv7 : 7 ∣ S7x16x1024.size 0 := ⟨1, rfl⟩
abbrev slotRect (b : Fin 7) : Rect S7x16x1024 := Rect.part (s := S7x16x1024) (a₀ := 0) hdiv7 b
abbrev slotSet (b : Fin 7) : Finset S7x16x1024.Idx := ((rV : Memref sig .scVector .vmem S7x16x1024 .f32).view.slice (slotRect b)).set

theorem slotSet_eq (b : Fin 7) : slotSet b = (slotRect b).set := by
  show ((View.whole (cc0_scratch0 : Ref sig .scVector)).slice (slotRect b)).set = _
  rw [View.set_slice]; exact Finset.map_refl
theorem slots_disjoint : ∀ b ∈ (Finset.univ : Finset (Fin 7)), ∀ b' ∈ (Finset.univ : Finset (Fin 7)), b ≠ b' → Disjoint (slotSet b) (slotSet b') :=
  fun b _ b' _ h => by rw [slotSet_eq, slotSet_eq]; exact Rect.part_disjoint hdiv7 h
theorem slots_cover : (Finset.univ : Finset (Fin 7)).biUnion slotSet = Finset.univ :=
  (Finset.biUnion_congr rfl fun b _ => slotSet_eq b).trans (Rect.biUnion_part hdiv7)

theorem rect_sl0 : Rect.unit (s := S7x16x1024) ![0, 0, 0] S1x16x1024.size inb_S7x16x1024_S1x16x1024_0_0_0 = slotRect 0 := by
  unfold slotRect Rect.part Rect.block
  congr 1 <;> funext a <;> fin_cases a <;> simp [Shape.partIx, Shape.partSize]
theorem set_sl0 : (sl0).view.set = slotSet 0 := by
  show (((rV : Memref sig .scVector .vmem S7x16x1024 .f32).view.slice (Rect.unit (s := S7x16x1024) ![0, 0, 0] S1x16x1024.size inb_S7x16x1024_S1x16x1024_0_0_0)).reshape S16x1024 squeezes_S1x16x1024_S16x1024.numel_eq).set
    = ((rV : Memref sig .scVector .vmem S7x16x1024 .f32).view.slice (slotRect 0)).set
  rw [View.set_reshape]
  exact rect_sl0 ▸ rfl
theorem rect_sl1 : Rect.unit (s := S7x16x1024) ![1, 0, 0] S1x16x1024.size inb_S7x16x1024_S1x16x1024_1_0_0 = slotRect 1 := by
  unfold slotRect Rect.part Rect.block
  congr 1 <;> funext a <;> fin_cases a <;> simp [Shape.partIx, Shape.partSize]
theorem set_sl1 : (sl1).view.set = slotSet 1 := by
  show (((rV : Memref sig .scVector .vmem S7x16x1024 .f32).view.slice (Rect.unit (s := S7x16x1024) ![1, 0, 0] S1x16x1024.size inb_S7x16x1024_S1x16x1024_1_0_0)).reshape S16x1024 squeezes_S1x16x1024_S16x1024.numel_eq).set
    = ((rV : Memref sig .scVector .vmem S7x16x1024 .f32).view.slice (slotRect 1)).set
  rw [View.set_reshape]
  exact rect_sl1 ▸ rfl
theorem rect_sl2 : Rect.unit (s := S7x16x1024) ![2, 0, 0] S1x16x1024.size inb_S7x16x1024_S1x16x1024_2_0_0 = slotRect 2 := by
  unfold slotRect Rect.part Rect.block
  congr 1 <;> funext a <;> fin_cases a <;> simp [Shape.partIx, Shape.partSize]
theorem set_sl2 : (sl2).view.set = slotSet 2 := by
  show (((rV : Memref sig .scVector .vmem S7x16x1024 .f32).view.slice (Rect.unit (s := S7x16x1024) ![2, 0, 0] S1x16x1024.size inb_S7x16x1024_S1x16x1024_2_0_0)).reshape S16x1024 squeezes_S1x16x1024_S16x1024.numel_eq).set
    = ((rV : Memref sig .scVector .vmem S7x16x1024 .f32).view.slice (slotRect 2)).set
  rw [View.set_reshape]
  exact rect_sl2 ▸ rfl
theorem rect_sl3 : Rect.unit (s := S7x16x1024) ![3, 0, 0] S1x16x1024.size inb_S7x16x1024_S1x16x1024_3_0_0 = slotRect 3 := by
  unfold slotRect Rect.part Rect.block
  congr 1 <;> funext a <;> fin_cases a <;> simp [Shape.partIx, Shape.partSize]
theorem set_sl3 : (sl3).view.set = slotSet 3 := by
  show (((rV : Memref sig .scVector .vmem S7x16x1024 .f32).view.slice (Rect.unit (s := S7x16x1024) ![3, 0, 0] S1x16x1024.size inb_S7x16x1024_S1x16x1024_3_0_0)).reshape S16x1024 squeezes_S1x16x1024_S16x1024.numel_eq).set
    = ((rV : Memref sig .scVector .vmem S7x16x1024 .f32).view.slice (slotRect 3)).set
  rw [View.set_reshape]
  exact rect_sl3 ▸ rfl
theorem rect_sl4 : Rect.unit (s := S7x16x1024) ![4, 0, 0] S1x16x1024.size inb_S7x16x1024_S1x16x1024_4_0_0 = slotRect 4 := by
  unfold slotRect Rect.part Rect.block
  congr 1 <;> funext a <;> fin_cases a <;> simp [Shape.partIx, Shape.partSize]
theorem set_sl4 : (sl4).view.set = slotSet 4 := by
  show (((rV : Memref sig .scVector .vmem S7x16x1024 .f32).view.slice (Rect.unit (s := S7x16x1024) ![4, 0, 0] S1x16x1024.size inb_S7x16x1024_S1x16x1024_4_0_0)).reshape S16x1024 squeezes_S1x16x1024_S16x1024.numel_eq).set
    = ((rV : Memref sig .scVector .vmem S7x16x1024 .f32).view.slice (slotRect 4)).set
  rw [View.set_reshape]
  exact rect_sl4 ▸ rfl
theorem rect_sl5 : Rect.unit (s := S7x16x1024) ![5, 0, 0] S1x16x1024.size inb_S7x16x1024_S1x16x1024_5_0_0 = slotRect 5 := by
  unfold slotRect Rect.part Rect.block
  congr 1 <;> funext a <;> fin_cases a <;> simp [Shape.partIx, Shape.partSize]
theorem set_sl5 : (sl5).view.set = slotSet 5 := by
  show (((rV : Memref sig .scVector .vmem S7x16x1024 .f32).view.slice (Rect.unit (s := S7x16x1024) ![5, 0, 0] S1x16x1024.size inb_S7x16x1024_S1x16x1024_5_0_0)).reshape S16x1024 squeezes_S1x16x1024_S16x1024.numel_eq).set
    = ((rV : Memref sig .scVector .vmem S7x16x1024 .f32).view.slice (slotRect 5)).set
  rw [View.set_reshape]
  exact rect_sl5 ▸ rfl
theorem rect_sl6 : Rect.unit (s := S7x16x1024) ![6, 0, 0] S1x16x1024.size inb_S7x16x1024_S1x16x1024_6_0_0 = slotRect 6 := by
  unfold slotRect Rect.part Rect.block
  congr 1 <;> funext a <;> fin_cases a <;> simp [Shape.partIx, Shape.partSize]
theorem set_sl6 : (sl6).view.set = slotSet 6 := by
  show (((rV : Memref sig .scVector .vmem S7x16x1024 .f32).view.slice (Rect.unit (s := S7x16x1024) ![6, 0, 0] S1x16x1024.size inb_S7x16x1024_S1x16x1024_6_0_0)).reshape S16x1024 squeezes_S1x16x1024_S16x1024.numel_eq).set
    = ((rV : Memref sig .scVector .vmem S7x16x1024 .f32).view.slice (slotRect 6)).set
  rw [View.set_reshape]
  exact rect_sl6 ▸ rfl

section Tile

variable (d : Dev nD) (c : Fin τ.nSC) (i : Fin τ.nSub)

abbrev rLoc : Loc nD τ sig := (V d c i).loc cc0_scratch0

theorem pts_sl0 (f : Buf (Elt F) (rLoc d c i)) :
    ((sl0).view.loc (V d c i) ↦[(sl0).view.set]{fullShare} f : sProp 𝕄) = rLoc d c i ↦[slotSet 0]{fullShare} f := by
  rw [show (sl0).view.set = slotSet 0 from set_sl0]
theorem pts_sl1 (f : Buf (Elt F) (rLoc d c i)) :
    ((sl1).view.loc (V d c i) ↦[(sl1).view.set]{fullShare} f : sProp 𝕄) = rLoc d c i ↦[slotSet 1]{fullShare} f := by
  rw [show (sl1).view.set = slotSet 1 from set_sl1]
theorem pts_sl2 (f : Buf (Elt F) (rLoc d c i)) :
    ((sl2).view.loc (V d c i) ↦[(sl2).view.set]{fullShare} f : sProp 𝕄) = rLoc d c i ↦[slotSet 2]{fullShare} f := by
  rw [show (sl2).view.set = slotSet 2 from set_sl2]
theorem pts_sl3 (f : Buf (Elt F) (rLoc d c i)) :
    ((sl3).view.loc (V d c i) ↦[(sl3).view.set]{fullShare} f : sProp 𝕄) = rLoc d c i ↦[slotSet 3]{fullShare} f := by
  rw [show (sl3).view.set = slotSet 3 from set_sl3]
theorem pts_sl4 (f : Buf (Elt F) (rLoc d c i)) :
    ((sl4).view.loc (V d c i) ↦[(sl4).view.set]{fullShare} f : sProp 𝕄) = rLoc d c i ↦[slotSet 4]{fullShare} f := by
  rw [show (sl4).view.set = slotSet 4 from set_sl4]
theorem pts_sl5 (f : Buf (Elt F) (rLoc d c i)) :
    ((sl5).view.loc (V d c i) ↦[(sl5).view.set]{fullShare} f : sProp 𝕄) = rLoc d c i ↦[slotSet 5]{fullShare} f := by
  rw [show (sl5).view.set = slotSet 5 from set_sl5]
theorem pts_sl6 (f : Buf (Elt F) (rLoc d c i)) :
    ((sl6).view.loc (V d c i) ↦[(sl6).view.set]{fullShare} f : sProp 𝕄) = rLoc d c i ↦[slotSet 6]{fullShare} f := by
  rw [show (sl6).view.set = slotSet 6 from set_sl6]

/-- The scratch buffer whole is its seven slots. -/
theorem ring_split (f : Buf (Elt F) (rLoc d c i)) :
    (rLoc d c i ↦{fullShare} f : sProp 𝕄) = iprop((rLoc d c i ↦[slotSet 0]{fullShare} f) ∗ (rLoc d c i ↦[slotSet 1]{fullShare} f) ∗ (rLoc d c i ↦[slotSet 2]{fullShare} f) ∗ (rLoc d c i ↦[slotSet 3]{fullShare} f) ∗ (rLoc d c i ↦[slotSet 4]{fullShare} f) ∗ (rLoc d c i ↦[slotSet 5]{fullShare} f) ∗ (rLoc d c i ↦[slotSet 6]{fullShare} f)) := by
  rw [← bigSep_fin7 (F := F) (fun b => rLoc d c i ↦[slotSet b]{fullShare} f), ← pointsTo_biUnion Finset.univ (ℓ := rLoc d c i) slotSet slots_disjoint, slots_cover]; try rfl

/-- Seven slots at whatever they hold are the scratch buffer at something. -/
theorem ring_join [FloatOps F] :
    (iprop((∃ f, rLoc d c i ↦[slotSet 0]{fullShare} f) ∗ (∃ f, rLoc d c i ↦[slotSet 1]{fullShare} f) ∗ (∃ f, rLoc d c i ↦[slotSet 2]{fullShare} f) ∗ (∃ f, rLoc d c i ↦[slotSet 3]{fullShare} f) ∗ (∃ f, rLoc d c i ↦[slotSet 4]{fullShare} f) ∗ (∃ f, rLoc d c i ↦[slotSet 5]{fullShare} f) ∗ (∃ f, rLoc d c i ↦[slotSet 6]{fullShare} f)) : sProp 𝕄) ⊢ iprop(∃ f, rLoc d c i ↦{fullShare} f) := by
  rw [← bigSep_fin7 (F := F) (fun b => iprop(∃ f, rLoc d c i ↦[slotSet b]{fullShare} f))]
  refine (bigSep_exists_pi Finset.univ (fun b (f : Buf (Elt F) (rLoc d c i)) => (rLoc d c i ↦[slotSet b]{fullShare} f : sProp 𝕄))).trans ?_
  iintro ⟨%fs, H⟩
  ihave H' := (pointsTo_biUnion_join Finset.univ slotSet fs (fs 0) slots_disjoint) $$ H
  icases H' with ⟨%g, -, Hg⟩
  rw [slots_cover]
  iexists g; iexact Hg

/-! ## The semaphores -/

theorem reg_unscoped : ∀ r : Sem sig, (SemLoc.reg r : SemLoc sig).isScoped .scVector = false := by decide
theorem dma_scoped : ∀ n : DmaSem sig, (SemLoc.dma n : SemLoc sig).isScoped .scVector = true := by decide

theorem ownCells_V : ownCells (sig := sig) (V d c i)
    = (Finset.univ : Finset (Fin 14)).map ⟨fun n => ((V d c i, SemLoc.dma n) : GSem nD τ sig), fun _ _ e => SemLoc.dma.inj (Prod.mk.inj e).2⟩ := by
  ext ⟨t, sm⟩
  simp only [mem_ownCells, Finset.mem_map, Finset.mem_univ, true_and, Function.Embedding.coeFn_mk]
  constructor
  · rintro ⟨rfl, h⟩
    cases sm with
    | reg r => exact absurd ((reg_unscoped r).symm.trans h) Bool.false_ne_true
    | dma n => exact ⟨n, rfl⟩
  · rintro ⟨n, e⟩
    obtain ⟨rfl, rfl⟩ := Prod.mk.inj e
    exact ⟨rfl, dma_scoped n⟩

/-- The subcore's scoped semaphores at zero are the kernel's fourteen. -/
theorem ownSems0_V :
    (ownSems0 (V d c i) : sProp 𝕄)
      = iprop(semVal (V d c i, SemLoc.dma cc0_scratch1.sem) 0 ∗ semVal (V d c i, SemLoc.dma cc0_scratch2.sem) 0 ∗ semVal (V d c i, SemLoc.dma cc0_scratch3.sem) 0 ∗ semVal (V d c i, SemLoc.dma cc0_scratch4.sem) 0 ∗ semVal (V d c i, SemLoc.dma cc0_scratch5.sem) 0 ∗ semVal (V d c i, SemLoc.dma cc0_scratch6.sem) 0 ∗ semVal (V d c i, SemLoc.dma cc0_scratch7.sem) 0 ∗ semVal (V d c i, SemLoc.dma cc0_scratch8.sem) 0 ∗ semVal (V d c i, SemLoc.dma cc0_scratch9.sem) 0 ∗ semVal (V d c i, SemLoc.dma cc0_scratch10.sem) 0 ∗ semVal (V d c i, SemLoc.dma cc0_scratch11.sem) 0 ∗ semVal (V d c i, SemLoc.dma cc0_scratch12.sem) 0 ∗ semVal (V d c i, SemLoc.dma cc0_scratch13.sem) 0 ∗ semVal (V d c i, SemLoc.dma cc0_scratch14.sem) 0) := by
  unfold SparseCore.Cfg.ownSems0
  rw [ownCells_V, bigSep_map, bigSep_fin14]
  rfl

/-! ## The subcore's own buffers -/

theorem ownBufs_V :
    (ownBufs (V d c i) : sProp 𝕄)
      = iprop((∃ f, rLoc d c i ↦{fullShare} f)
          ∗ bigSep ((ownRefs (τ := τ) (sig := sig) (.scVector c i)).erase ((Proc.scVector c i).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector c i) (b := (Proc.scVector c i).devRef cc0_scratch0) rfl)

/-! ## A subcore's rows, chunk by chunk -/

theorem xOn_tile (c' : Fin 2) (s : Fin 16) (f : Buf (Elt F) (xLoc d)) :
    (xLoc d ↦[tileSet c' s]{fullShare} f : sProp 𝕄) = iprop((xLoc d ↦[chunk (gIx c' s 0)]{fullShare} f) ∗ (xLoc d ↦[chunk (gIx c' s 1)]{fullShare} f) ∗ (xLoc d ↦[chunk (gIx c' s 2)]{fullShare} f) ∗ (xLoc d ↦[chunk (gIx c' s 3)]{fullShare} f) ∗ (xLoc d ↦[chunk (gIx c' s 4)]{fullShare} f) ∗ (xLoc d ↦[chunk (gIx c' s 5)]{fullShare} f) ∗ (xLoc d ↦[chunk (gIx c' s 6)]{fullShare} f) ∗ (xLoc d ↦[chunk (gIx c' s 7)]{fullShare} f) ∗ (xLoc d ↦[chunk (gIx c' s 8)]{fullShare} f) ∗ (xLoc d ↦[chunk (gIx c' s 9)]{fullShare} f) ∗ (xLoc d ↦[chunk (gIx c' s 10)]{fullShare} f) ∗ (xLoc d ↦[chunk (gIx c' s 11)]{fullShare} f) ∗ (xLoc d ↦[chunk (gIx c' s 12)]{fullShare} f) ∗ (xLoc d ↦[chunk (gIx c' s 13)]{fullShare} f) ∗ (xLoc d ↦[chunk (gIx c' s 14)]{fullShare} f) ∗ (xLoc d ↦[chunk (gIx c' s 15)]{fullShare} f)) := by
  unfold tileSet
  rw [pointsTo_biUnion Finset.univ (ℓ := xLoc d) (fun k : Fin 16 => chunk (gIx c' s k)) (chunks_disjoint c' s), bigSep_fin16]
theorem oOn_tile (c' : Fin 2) (s : Fin 16) (f : Buf (Elt F) (oLoc d)) :
    (oLoc d ↦[tileSet c' s]{fullShare} f : sProp 𝕄) = iprop((oLoc d ↦[chunk (gIx c' s 0)]{fullShare} f) ∗ (oLoc d ↦[chunk (gIx c' s 1)]{fullShare} f) ∗ (oLoc d ↦[chunk (gIx c' s 2)]{fullShare} f) ∗ (oLoc d ↦[chunk (gIx c' s 3)]{fullShare} f) ∗ (oLoc d ↦[chunk (gIx c' s 4)]{fullShare} f) ∗ (oLoc d ↦[chunk (gIx c' s 5)]{fullShare} f) ∗ (oLoc d ↦[chunk (gIx c' s 6)]{fullShare} f) ∗ (oLoc d ↦[chunk (gIx c' s 7)]{fullShare} f) ∗ (oLoc d ↦[chunk (gIx c' s 8)]{fullShare} f) ∗ (oLoc d ↦[chunk (gIx c' s 9)]{fullShare} f) ∗ (oLoc d ↦[chunk (gIx c' s 10)]{fullShare} f) ∗ (oLoc d ↦[chunk (gIx c' s 11)]{fullShare} f) ∗ (oLoc d ↦[chunk (gIx c' s 12)]{fullShare} f) ∗ (oLoc d ↦[chunk (gIx c' s 13)]{fullShare} f) ∗ (oLoc d ↦[chunk (gIx c' s 14)]{fullShare} f) ∗ (oLoc d ↦[chunk (gIx c' s 15)]{fullShare} f)) := by
  unfold tileSet
  rw [pointsTo_biUnion Finset.univ (ℓ := oLoc d) (fun k : Fin 16 => chunk (gIx c' s k)) (chunks_disjoint c' s), bigSep_fin16]

end Tile

end Cert.Proof.IdealCopy

end
-- ==== Proof.IdealBody.lean ====
/-
  One vector subcore's task of the copy kernel, at a symbolic place: holding its sixteen chunks of the table and of the
  result, its ring's seven slots and its fourteen semaphores at zero, it issues chunk k into slot k % 7, waits for it six
  issues later, sends the slot out to chunk k of the result, and waits for that before the slot is filled again; every
  slot and every semaphore has one copy in flight at a time. At the end each chunk of the result holds what the
  corresponding chunk of the table held, and the table is as it was.
-/
import proofs.«213585_g19138374271248_cont_8to1_1565_24_alg».proof.Proof.IdealPieces

noncomputable section

namespace Cert.Proof.IdealCopy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

section Tile

variable (d : Dev nD) (L : grid0.Coords)

omit [FloatOps F] in
/-- A sixteen-row piece that went from a view `vt` of one array into a ring slot (whatever the slot held, whatever
    landed in it before) and from the slot into a view `vo` of another array reads, through `vo`, as the first array
    reads through `vt`. -/
theorem through_slot (vo : View sig .scVector .hbm S16x1024 .f32) (vs : View sig .scVector .vmem S16x1024 .f32) (vt : View sig .scVector .hbm S16x1024 .f32)
    (fo : vo.ty.Contents (Elt F)) (fr : vs.ty.Contents (Elt F)) (Lr : List (View.Piece (Elt F) S16x1024 .f32)) (ft : vt.ty.Contents (Elt F)) :
    vo.read (Elt F) (vo.writes (Elt F) fo [⟨Rect.whole S16x1024, ReadAs.same.apply (vs.read (Elt F) (vs.writes (Elt F) fr (⟨Rect.whole S16x1024, ReadAs.same.apply (vt.read (Elt F) ft)⟩ :: Lr)))⟩])
      = vt.read (Elt F) ft := by
  rw [View.read_writes_whole, ReadAs.apply_same, ReadAs.apply_same, ← View.write_univ_eq_writes_whole, View.read_write_univ]

omit [FloatOps F] in
/-- The same at one element of `vo`: the array written through `vo` agrees there with any contents `g` that read,
    through `vo`, as the first array through `vt`. -/
theorem value_at (vo : View sig .scVector .hbm S16x1024 .f32) (vs : View sig .scVector .vmem S16x1024 .f32) (vt : View sig .scVector .hbm S16x1024 .f32)
    (fo : vo.ty.Contents (Elt F)) (fr : vs.ty.Contents (Elt F)) (Lr : List (View.Piece (Elt F) S16x1024 .f32)) (ft : vt.ty.Contents (Elt F))
    (g : vo.ty.Contents (Elt F)) (y : S16x1024.Idx) (hg : vo.read (Elt F) g y = vt.read (Elt F) ft y) :
    vo.writes (Elt F) fo [⟨Rect.whole S16x1024, ReadAs.same.apply (vs.read (Elt F) (vs.writes (Elt F) fr (⟨Rect.whole S16x1024, ReadAs.same.apply (vt.read (Elt F) ft)⟩ :: Lr)))⟩] (vo.emb y)
      = g (vo.emb y) := by
  have h := congrFun (through_slot vo vs vt fo fr Lr ft) y
  rw [← hg, View.read_apply, View.read_apply] at h
  exact eq_of_heq (((cast_heq _ _).symm.trans (heq_of_eq h)).trans (cast_heq _ _))

omit [FloatOps F] in
/-- One more wait recorded at no call's index keeps the record of the form the launch asks for. -/
theorem waits_insert {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

theorem tile_body (hF : (K (F := F)).Facts) (O : CellTallies nD τ sig (HIx 1)) (W : Waits sig (HIx 1)) (hO : ∀ g, O g none = 0) :
    iprop(levAts (K (F := F)).L (K (F := F)).lev ∗ emp
        ∗ (xOn m d (tileSet (cL L) (jL L)) ∗ oOn d (tileSet (cL L) (jL L)) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L tV (Memref.isWhole_whole _) oV (Memref.isWhole_whole _) rV (Memref.isWhole_whole _) cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14)
          fun _ => iprop((xOn m d (tileSet (cL L) (jL L)) ∗ oOn d (tileSet (cL L) (jL L)) (tab m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  simp only [xOn, oOn, xOn_tile, oOn_tile]
  iintro ⟨#Hlv, -, ⟨⟨T0, T1, T2, T3, T4, T5, T6, T7, T8, T9, T10, T11, T12, T13, T14, T15⟩, ⟨U0, U1, U2, U3, U4, U5, U6, U7, U8, U9, U10, U11, U12, U13, U14, U15⟩⟩, ⟨⟨%fr, Hr⟩, Hbufs⟩, ⟨S1, S2, S3, S4, S5, S6, S7, S8, S9, S10, S11, S12, S13, S14⟩, HO⟩
  ihave Hr' := (Entails.of_eq (ring_split (F := F) d (cV L) (jV L) fr)) $$ Hr
  icases Hr' with ⟨R0, R1, R2, R3, R4, R5, R6⟩
  ihave T0 := (Entails.of_eq (pts_tC0 (F := F) d L _).symm) $$ T0
  ihave U0 := (Entails.of_eq (pts_oC0 (F := F) d L _).symm) $$ U0
  ihave T1 := (Entails.of_eq (pts_tC1 (F := F) d L _).symm) $$ T1
  ihave U1 := (Entails.of_eq (pts_oC1 (F := F) d L _).symm) $$ U1
  ihave T2 := (Entails.of_eq (pts_tC2 (F := F) d L _).symm) $$ T2
  ihave U2 := (Entails.of_eq (pts_oC2 (F := F) d L _).symm) $$ U2
  ihave T3 := (Entails.of_eq (pts_tC3 (F := F) d L _).symm) $$ T3
  ihave U3 := (Entails.of_eq (pts_oC3 (F := F) d L _).symm) $$ U3
  ihave T4 := (Entails.of_eq (pts_tC4 (F := F) d L _).symm) $$ T4
  ihave U4 := (Entails.of_eq (pts_oC4 (F := F) d L _).symm) $$ U4
  ihave T5 := (Entails.of_eq (pts_tC5 (F := F) d L _).symm) $$ T5
  ihave U5 := (Entails.of_eq (pts_oC5 (F := F) d L _).symm) $$ U5
  ihave T6 := (Entails.of_eq (pts_tC6 (F := F) d L _).symm) $$ T6
  ihave U6 := (Entails.of_eq (pts_oC6 (F := F) d L _).symm) $$ U6
  ihave T7 := (Entails.of_eq (pts_tC7 (F := F) d L _).symm) $$ T7
  ihave U7 := (Entails.of_eq (pts_oC7 (F := F) d L _).symm) $$ U7
  ihave T8 := (Entails.of_eq (pts_tC8 (F := F) d L _).symm) $$ T8
  ihave U8 := (Entails.of_eq (pts_oC8 (F := F) d L _).symm) $$ U8
  ihave T9 := (Entails.of_eq (pts_tC9 (F := F) d L _).symm) $$ T9
  ihave U9 := (Entails.of_eq (pts_oC9 (F := F) d L _).symm) $$ U9
  ihave T10 := (Entails.of_eq (pts_tC10 (F := F) d L _).symm) $$ T10
  ihave U10 := (Entails.of_eq (pts_oC10 (F := F) d L _).symm) $$ U10
  ihave T11 := (Entails.of_eq (pts_tC11 (F := F) d L _).symm) $$ T11
  ihave U11 := (Entails.of_eq (pts_oC11 (F := F) d L _).symm) $$ U11
  ihave T12 := (Entails.of_eq (pts_tC12 (F := F) d L _).symm) $$ T12
  ihave U12 := (Entails.of_eq (pts_oC12 (F := F) d L _).symm) $$ U12
  ihave T13 := (Entails.of_eq (pts_tC13 (F := F) d L _).symm) $$ T13
  ihave U13 := (Entails.of_eq (pts_oC13 (F := F) d L _).symm) $$ U13
  ihave T14 := (Entails.of_eq (pts_tC14 (F := F) d L _).symm) $$ T14
  ihave U14 := (Entails.of_eq (pts_oC14 (F := F) d L _).symm) $$ U14
  ihave T15 := (Entails.of_eq (pts_tC15 (F := F) d L _).symm) $$ T15
  ihave U15 := (Entails.of_eq (pts_oC15 (F := F) d L _).symm) $$ U15
  ihave R0 := (Entails.of_eq (pts_sl0 (F := F) d (cV L) (jV L) _).symm) $$ R0
  ihave R1 := (Entails.of_eq (pts_sl1 (F := F) d (cV L) (jV L) _).symm) $$ R1
  ihave R2 := (Entails.of_eq (pts_sl2 (F := F) d (cV L) (jV L) _).symm) $$ R2
  ihave R3 := (Entails.of_eq (pts_sl3 (F := F) d (cV L) (jV L) _).symm) $$ R3
  ihave R4 := (Entails.of_eq (pts_sl4 (F := F) d (cV L) (jV L) _).symm) $$ R4
  ihave R5 := (Entails.of_eq (pts_sl5 (F := F) d (cV L) (jV L) _).symm) $$ R5
  ihave R6 := (Entails.of_eq (pts_sl6 (F := F) d (cV L) (jV L) _).symm) $$ R6
  ihave Hmw := ((K (F := F)).mayWaits_none (thr := V d (cV L) (jV L)) hO) $$ Hlv
  sl_exec_parts
  sl_step
  -- each chunk of the result holds the table's chunk
  have hv0 : ∀ i ∈ chunk (gIx (cL L) (jL L) 0),
      ((oC0 L).view.writes (Elt F) (m (oLoc d)) [⟨Rect.whole S16x1024, tile_body.sl.dma0_7 m d L fr⟩]) i = tab m d i := by
    intro i hi
    rw [← set_oCh L 0] at hi
    obtain ⟨y, -, rfl⟩ := Finset.mem_map.mp hi
    exact value_at (F := F) (oC0 L).view sl0.view (tC0 L).view _ fr _ (m (xLoc d)) (tab m d) y rfl
  ihave U0 := (Entails.of_eq ((pts_oC0 (F := F) d L _).trans (pointsTo_congr hv0))) $$ U0
  ihave T0 := (Entails.of_eq (pts_tC0 (F := F) d L _)) $$ T0
  have hv1 : ∀ i ∈ chunk (gIx (cL L) (jL L) 1),
      ((oC1 L).view.writes (Elt F) (m (oLoc d)) [⟨Rect.whole S16x1024, tile_body.sl.dma0_9 m d L fr⟩]) i = tab m d i := by
    intro i hi
    rw [← set_oCh L 1] at hi
    obtain ⟨y, -, rfl⟩ := Finset.mem_map.mp hi
    exact value_at (F := F) (oC1 L).view sl1.view (tC1 L).view _ fr _ (m (xLoc d)) (tab m d) y rfl
  ihave U1 := (Entails.of_eq ((pts_oC1 (F := F) d L _).trans (pointsTo_congr hv1))) $$ U1
  ihave T1 := (Entails.of_eq (pts_tC1 (F := F) d L _)) $$ T1
  have hv2 : ∀ i ∈ chunk (gIx (cL L) (jL L) 2),
      ((oC2 L).view.writes (Elt F) (m (oLoc d)) [⟨Rect.whole S16x1024, tile_body.sl.dma0_11 m d L fr⟩]) i = tab m d i := by
    intro i hi
    rw [← set_oCh L 2] at hi
    obtain ⟨y, -, rfl⟩ := Finset.mem_map.mp hi
    exact value_at (F := F) (oC2 L).view sl2.view (tC2 L).view _ fr _ (m (xLoc d)) (tab m d) y rfl
  ihave U2 := (Entails.of_eq ((pts_oC2 (F := F) d L _).trans (pointsTo_congr hv2))) $$ U2
  ihave T2 := (Entails.of_eq (pts_tC2 (F := F) d L _)) $$ T2
  have hv3 : ∀ i ∈ chunk (gIx (cL L) (jL L) 3),
      ((oC3 L).view.writes (Elt F) (m (oLoc d)) [⟨Rect.whole S16x1024, tile_body.sl.dma0_13 m d L fr⟩]) i = tab m d i := by
    intro i hi
    rw [← set_oCh L 3] at hi
    obtain ⟨y, -, rfl⟩ := Finset.mem_map.mp hi
    exact value_at (F := F) (oC3 L).view sl3.view (tC3 L).view _ fr _ (m (xLoc d)) (tab m d) y rfl
  ihave U3 := (Entails.of_eq ((pts_oC3 (F := F) d L _).trans (pointsTo_congr hv3))) $$ U3
  ihave T3 := (Entails.of_eq (pts_tC3 (F := F) d L _)) $$ T3
  have hv4 : ∀ i ∈ chunk (gIx (cL L) (jL L) 4),
      ((oC4 L).view.writes (Elt F) (m (oLoc d)) [⟨Rect.whole S16x1024, tile_body.sl.dma0_15 m d L fr⟩]) i = tab m d i := by
    intro i hi
    rw [← set_oCh L 4] at hi
    obtain ⟨y, -, rfl⟩ := Finset.mem_map.mp hi
    exact value_at (F := F) (oC4 L).view sl4.view (tC4 L).view _ fr _ (m (xLoc d)) (tab m d) y rfl
  ihave U4 := (Entails.of_eq ((pts_oC4 (F := F) d L _).trans (pointsTo_congr hv4))) $$ U4
  ihave T4 := (Entails.of_eq (pts_tC4 (F := F) d L _)) $$ T4
  have hv5 : ∀ i ∈ chunk (gIx (cL L) (jL L) 5),
      ((oC5 L).view.writes (Elt F) (m (oLoc d)) [⟨Rect.whole S16x1024, tile_body.sl.dma0_17 m d L fr⟩]) i = tab m d i := by
    intro i hi
    rw [← set_oCh L 5] at hi
    obtain ⟨y, -, rfl⟩ := Finset.mem_map.mp hi
    exact value_at (F := F) (oC5 L).view sl5.view (tC5 L).view _ fr _ (m (xLoc d)) (tab m d) y rfl
  ihave U5 := (Entails.of_eq ((pts_oC5 (F := F) d L _).trans (pointsTo_congr hv5))) $$ U5
  ihave T5 := (Entails.of_eq (pts_tC5 (F := F) d L _)) $$ T5
  have hv6 : ∀ i ∈ chunk (gIx (cL L) (jL L) 6),
      ((oC6 L).view.writes (Elt F) (m (oLoc d)) [⟨Rect.whole S16x1024, tile_body.sl.dma0_19 m d L fr⟩]) i = tab m d i := by
    intro i hi
    rw [← set_oCh L 6] at hi
    obtain ⟨y, -, rfl⟩ := Finset.mem_map.mp hi
    exact value_at (F := F) (oC6 L).view sl6.view (tC6 L).view _ fr _ (m (xLoc d)) (tab m d) y rfl
  ihave U6 := (Entails.of_eq ((pts_oC6 (F := F) d L _).trans (pointsTo_congr hv6))) $$ U6
  ihave T6 := (Entails.of_eq (pts_tC6 (F := F) d L _)) $$ T6
  have hv7 : ∀ i ∈ chunk (gIx (cL L) (jL L) 7),
      ((oC7 L).view.writes (Elt F) (m (oLoc d)) [⟨Rect.whole S16x1024, tile_body.sl.dma0_21 m d L fr⟩]) i = tab m d i := by
    intro i hi
    rw [← set_oCh L 7] at hi
    obtain ⟨y, -, rfl⟩ := Finset.mem_map.mp hi
    exact value_at (F := F) (oC7 L).view sl0.view (tC7 L).view _ fr _ (m (xLoc d)) (tab m d) y rfl
  ihave U7 := (Entails.of_eq ((pts_oC7 (F := F) d L _).trans (pointsTo_congr hv7))) $$ U7
  ihave T7 := (Entails.of_eq (pts_tC7 (F := F) d L _)) $$ T7
  have hv8 : ∀ i ∈ chunk (gIx (cL L) (jL L) 8),
      ((oC8 L).view.writes (Elt F) (m (oLoc d)) [⟨Rect.whole S16x1024, tile_body.sl.dma0_23 m d L fr⟩]) i = tab m d i := by
    intro i hi
    rw [← set_oCh L 8] at hi
    obtain ⟨y, -, rfl⟩ := Finset.mem_map.mp hi
    exact value_at (F := F) (oC8 L).view sl1.view (tC8 L).view _ fr _ (m (xLoc d)) (tab m d) y rfl
  ihave U8 := (Entails.of_eq ((pts_oC8 (F := F) d L _).trans (pointsTo_congr hv8))) $$ U8
  ihave T8 := (Entails.of_eq (pts_tC8 (F := F) d L _)) $$ T8
  have hv9 : ∀ i ∈ chunk (gIx (cL L) (jL L) 9),
      ((oC9 L).view.writes (Elt F) (m (oLoc d)) [⟨Rect.whole S16x1024, tile_body.sl.dma0_25 m d L fr⟩]) i = tab m d i := by
    intro i hi
    rw [← set_oCh L 9] at hi
    obtain ⟨y, -, rfl⟩ := Finset.mem_map.mp hi
    exact value_at (F := F) (oC9 L).view sl2.view (tC9 L).view _ fr _ (m (xLoc d)) (tab m d) y rfl
  ihave U9 := (Entails.of_eq ((pts_oC9 (F := F) d L _).trans (pointsTo_congr hv9))) $$ U9
  ihave T9 := (Entails.of_eq (pts_tC9 (F := F) d L _)) $$ T9
  have hv10 : ∀ i ∈ chunk (gIx (cL L) (jL L) 10),
      ((oC10 L).view.writes (Elt F) (m (oLoc d)) [⟨Rect.whole S16x1024, tile_body.sl.dma0_26 m d L fr⟩]) i = tab m d i := by
    intro i hi
    rw [← set_oCh L 10] at hi
    obtain ⟨y, -, rfl⟩ := Finset.mem_map.mp hi
    exact value_at (F := F) (oC10 L).view sl3.view (tC10 L).view _ fr _ (m (xLoc d)) (tab m d) y rfl
  ihave U10 := (Entails.of_eq ((pts_oC10 (F := F) d L _).trans (pointsTo_congr hv10))) $$ U10
  ihave T10 := (Entails.of_eq (pts_tC10 (F := F) d L _)) $$ T10
  have hv11 : ∀ i ∈ chunk (gIx (cL L) (jL L) 11),
      ((oC11 L).view.writes (Elt F) (m (oLoc d)) [⟨Rect.whole S16x1024, tile_body.sl.dma0_27 m d L fr⟩]) i = tab m d i := by
    intro i hi
    rw [← set_oCh L 11] at hi
    obtain ⟨y, -, rfl⟩ := Finset.mem_map.mp hi
    exact value_at (F := F) (oC11 L).view sl4.view (tC11 L).view _ fr _ (m (xLoc d)) (tab m d) y rfl
  ihave U11 := (Entails.of_eq ((pts_oC11 (F := F) d L _).trans (pointsTo_congr hv11))) $$ U11
  ihave T11 := (Entails.of_eq (pts_tC11 (F := F) d L _)) $$ T11
  have hv12 : ∀ i ∈ chunk (gIx (cL L) (jL L) 12),
      ((oC12 L).view.writes (Elt F) (m (oLoc d)) [⟨Rect.whole S16x1024, tile_body.sl.dma0_28 m d L fr⟩]) i = tab m d i := by
    intro i hi
    rw [← set_oCh L 12] at hi
    obtain ⟨y, -, rfl⟩ := Finset.mem_map.mp hi
    exact value_at (F := F) (oC12 L).view sl5.view (tC12 L).view _ fr _ (m (xLoc d)) (tab m d) y rfl
  ihave U12 := (Entails.of_eq ((pts_oC12 (F := F) d L _).trans (pointsTo_congr hv12))) $$ U12
  ihave T12 := (Entails.of_eq (pts_tC12 (F := F) d L _)) $$ T12
  have hv13 : ∀ i ∈ chunk (gIx (cL L) (jL L) 13),
      ((oC13 L).view.writes (Elt F) (m (oLoc d)) [⟨Rect.whole S16x1024, tile_body.sl.dma0_29 m d L fr⟩]) i = tab m d i := by
    intro i hi
    rw [← set_oCh L 13] at hi
    obtain ⟨y, -, rfl⟩ := Finset.mem_map.mp hi
    exact value_at (F := F) (oC13 L).view sl6.view (tC13 L).view _ fr _ (m (xLoc d)) (tab m d) y rfl
  ihave U13 := (Entails.of_eq ((pts_oC13 (F := F) d L _).trans (pointsTo_congr hv13))) $$ U13
  ihave T13 := (Entails.of_eq (pts_tC13 (F := F) d L _)) $$ T13
  have hv14 : ∀ i ∈ chunk (gIx (cL L) (jL L) 14),
      ((oC14 L).view.writes (Elt F) (m (oLoc d)) [⟨Rect.whole S16x1024, tile_body.sl.dma0_30 m d L fr⟩]) i = tab m d i := by
    intro i hi
    rw [← set_oCh L 14] at hi
    obtain ⟨y, -, rfl⟩ := Finset.mem_map.mp hi
    exact value_at (F := F) (oC14 L).view sl0.view (tC14 L).view _ fr _ (m (xLoc d)) (tab m d) y rfl
  ihave U14 := (Entails.of_eq ((pts_oC14 (F := F) d L _).trans (pointsTo_congr hv14))) $$ U14
  ihave T14 := (Entails.of_eq (pts_tC14 (F := F) d L _)) $$ T14
  have hv15 : ∀ i ∈ chunk (gIx (cL L) (jL L) 15),
      ((oC15 L).view.writes (Elt F) (m (oLoc d)) [⟨Rect.whole S16x1024, tile_body.sl.dma0_31 m d L fr⟩]) i = tab m d i := by
    intro i hi
    rw [← set_oCh L 15] at hi
    obtain ⟨y, -, rfl⟩ := Finset.mem_map.mp hi
    exact value_at (F := F) (oC15 L).view sl1.view (tC15 L).view _ fr _ (m (xLoc d)) (tab m d) y rfl
  ihave U15 := (Entails.of_eq ((pts_oC15 (F := F) d L _).trans (pointsTo_congr hv15))) $$ U15
  ihave T15 := (Entails.of_eq (pts_tC15 (F := F) d L _)) $$ T15
  ihave R0 := (Entails.of_eq (pts_sl0 (F := F) d (cV L) (jV L) _)) $$ R0
  ihave R1 := (Entails.of_eq (pts_sl1 (F := F) d (cV L) (jV L) _)) $$ R1
  ihave R2 := (Entails.of_eq (pts_sl2 (F := F) d (cV L) (jV L) _)) $$ R2
  ihave R3 := (Entails.of_eq (pts_sl3 (F := F) d (cV L) (jV L) _)) $$ R3
  ihave R4 := (Entails.of_eq (pts_sl4 (F := F) d (cV L) (jV L) _)) $$ R4
  ihave R5 := (Entails.of_eq (pts_sl5 (F := F) d (cV L) (jV L) _)) $$ R5
  ihave R6 := (Entails.of_eq (pts_sl6 (F := F) d (cV L) (jV L) _)) $$ R6
  isplitl [T0 T1 T2 T3 T4 T5 T6 T7 T8 T9 T10 T11 T12 T13 T14 T15 U0 U1 U2 U3 U4 U5 U6 U7 U8 U9 U10 U11 U12 U13 U14 U15]
  · isplitl [T0 T1 T2 T3 T4 T5 T6 T7 T8 T9 T10 T11 T12 T13 T14 T15]
    · isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      isplitl [T8]; · iexact T8
      isplitl [T9]; · iexact T9
      isplitl [T10]; · iexact T10
      isplitl [T11]; · iexact T11
      isplitl [T12]; · iexact T12
      isplitl [T13]; · iexact T13
      isplitl [T14]; · iexact T14
      iexact T15
    · isplitl [U0]; · iexact U0
      isplitl [U1]; · iexact U1
      isplitl [U2]; · iexact U2
      isplitl [U3]; · iexact U3
      isplitl [U4]; · iexact U4
      isplitl [U5]; · iexact U5
      isplitl [U6]; · iexact U6
      isplitl [U7]; · iexact U7
      isplitl [U8]; · iexact U8
      isplitl [U9]; · iexact U9
      isplitl [U10]; · iexact U10
      isplitl [U11]; · iexact U11
      isplitl [U12]; · iexact U12
      isplitl [U13]; · iexact U13
      isplitl [U14]; · iexact U14
      iexact U15
  isplitl [R0 R1 R2 R3 R4 R5 R6 Hbufs]
  · isplitl [R0 R1 R2 R3 R4 R5 R6]
    · iapply (ring_join (F := F) d (cV L) (jV L))
      isplitl [R0]; · (iexists _; iexact R0)
      isplitl [R1]; · (iexists _; iexact R1)
      isplitl [R2]; · (iexists _; iexact R2)
      isplitl [R3]; · (iexists _; iexact R3)
      isplitl [R4]; · (iexists _; iexact R4)
      isplitl [R5]; · (iexists _; iexact R5)
      (iexists _; iexact R6)
    · iexact Hbufs
  isplitl [S1 S2 S3 S4 S5 S6 S7 S8 S9 S10 S11 S12 S13 S14]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    iexact S14
  iexists _; isplitr
  rotate_left
  · iexact HO
  · ipureintro
    iterate 32 (refine waits_insert ?_)
    exact fun p hp => .inl hp

end Tile

end Cert.Proof.IdealCopy

end
-- ==== Proof.IdealLaunch.lean ====
/-
  The copy kernel's launch: the TensorCore hands each SparseCore its rows of the table and of the result (the rows are
  cut in two interleaved halves, then each half among sixteen subcores), every subcore copies its rows, and the rows
  come back joined: the result whole at the table's contents, the table and the index array as they were. From this,
  every weakly fair execution of the device's threads terminates without a fault in such a memory.
-/
import proofs.«213585_g19138374271248_cont_8to1_1565_24_alg».proof.Proof.IdealBody

noncomputable section

namespace Cert.Proof.IdealCopy

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          tV (Memref.isWhole_whole _) oV (Memref.isWhole_whole _) rV (Memref.isWhole_whole _) cc0_scratch1 cc0_scratch2 cc0_scratch3 cc0_scratch4 cc0_scratch5 cc0_scratch6 cc0_scratch7 cc0_scratch8 cc0_scratch9 cc0_scratch10 cc0_scratch11 cc0_scratch12 cc0_scratch13 cc0_scratch14) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's rows are its sixteen subcores' rows, before and after. -/
theorem vecSplit : (K (F := F)).VecSplit' (P m) 0 := by
  intro d c
  show iprop(xOn m d (coreSet (Fin.cast nCore_zero c)) ∗ oOn d (coreSet (Fin.cast nCore_zero c)) (m (oLoc d))) ⊢ |={Set.univ}=> iprop(
      (bigSep Finset.univ fun i : Fin ((K (F := F)).nSub 0) =>
        iprop(xOn m d (tileSet (Fin.cast nCore_zero c) (Fin.cast nSub_zero i)) ∗ oOn d (tileSet (Fin.cast nCore_zero c) (Fin.cast nSub_zero i)) (m (oLoc d))))
      ∗ ((bigSep Finset.univ fun i : Fin ((K (F := F)).nSub 0) =>
          iprop(xOn m d (tileSet (Fin.cast nCore_zero c) (Fin.cast nSub_zero i)) ∗ oOn d (tileSet (Fin.cast nCore_zero c) (Fin.cast nSub_zero i)) (tab m d)))
          -∗ iprop(xOn m d (coreSet (Fin.cast nCore_zero c)) ∗ oOn d (coreSet (Fin.cast nCore_zero c)) (tab m d))))
  rw [bigSep_tasks (F := F) (fun i => iprop(xOn m d (tileSet (Fin.cast nCore_zero c) i) ∗ oOn d (tileSet (Fin.cast nCore_zero c) i) (m (oLoc d)))),
    bigSep_tasks (F := F) (fun i => iprop(xOn m d (tileSet (Fin.cast nCore_zero c) i) ∗ oOn d (tileSet (Fin.cast nCore_zero c) i) (tab m d))), bigSep_sep', bigSep_sep']
  unfold xOn oOn coreSet
  rw [pointsTo_biUnion Finset.univ (ℓ := xLoc d) (tileSet (Fin.cast nCore_zero c)) (tiles_disjoint _),
    pointsTo_biUnion Finset.univ (ℓ := oLoc d) (tileSet (Fin.cast nCore_zero c)) (tiles_disjoint _),
    pointsTo_biUnion Finset.univ (ℓ := oLoc d) (tileSet (Fin.cast nCore_zero c)) (tiles_disjoint _)]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev iPts (d : Dev nD) : sProp 𝕄 := iLoc d ↦{fullShare} m (iLoc d)

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The whole table and the whole result are the two SparseCores' rows. -/
theorem cores_eq (d : Dev nD) (f : Buf (Elt F) (oLoc d)) :
    (bigSep Finset.univ fun c : Fin ((K (F := F)).nCore 0) => iprop(xOn m d (coreSet (Fin.cast nCore_zero c)) ∗ oOn d (coreSet (Fin.cast nCore_zero c)) f))
      = iprop(xPts m d ∗ oPts d f) := by
  rw [bigSep_cores (F := F) (fun c => iprop(xOn m d (coreSet c) ∗ oOn d (coreSet c) f)), bigSep_sep']
  unfold xOn oOn xPts oPts
  rw [← pointsTo_biUnion Finset.univ (ℓ := xLoc d) coreSet cores_disjoint, ← pointsTo_biUnion Finset.univ (ℓ := oLoc d) coreSet cores_disjoint, cores_cover]
  try rfl
theorem st0_eq (d : Dev nD) : (bigSep Finset.univ fun c : Fin ((K (F := F)).nCore 0) => (P m).st 0 d c) = iprop(xPts m d ∗ oPts d (m (oLoc d))) :=
  cores_eq m d _
theorem dn0_eq (d : Dev nD) : (bigSep Finset.univ fun c : Fin ((K (F := F)).nCore 0) => (P m).dn 0 d c) = iprop(xPts m d ∗ oPts d (tab m d)) :=
  cores_eq m d _

abbrev FIN (d : Dev nD) : sProp 𝕄 := iprop(iPts m d ∗ xPts m d ∗ oPts d (tab m d))

/-- @main on device `d`'s TensorCore: the one call, from the table and the result; the index array kept beside. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m) κ d 0) $$ [Hst Hi Hx Ho]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  imodintro
  isplitl [Hst]; · iexact Hst
  isplitl [Hi]; · iexact Hi
  isplitl [Hx]; · iexact Hx
  iexact Ho

def fq (d : Dev nD) (s' : Phys nD τ sig (Elt F)) : Prop :=
  s'.mem.mem (oLoc d) = tab m d ∧ s'.mem.mem (iLoc d) = m (iLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := tab m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = tab m c ∧ r.2.mem (iLoc c) = m (iLoc c) ∧ r.2.mem (xLoc c) = m (xLoc c)

/-- Every weakly fair execution of the device's threads ends, without a fault, with the result at the table's contents
    and the two arguments unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.IdealCopy

end
-- ==== Proof.RefRun.lean ====
/-
  The reference program's run. @main is one iota followed by a call of the outlined row lookup, whose body
  (with the select of the function it calls in turn) is listed here inline over the call's buffers: twenty-four
  operations in a straight line. Every weakly fair execution terminates with each buffer at the fold of the
  operations over the launch contents. With the index vector the iota 0, 1, …, 8191 every index is in range:
  the negative-index wrap keeps it, the in-range mask is all ones, the row gathered for output row i is row i of
  the table, and the select keeps the gathered value. The result is the table.
-/
import proofs.«213585_g19138374271248_cont_8to1_1565_24_alg».proof.ReferenceIdeal
import proofs.«213585_g19138374271248_cont_8to1_1565_24_alg».proof.Proof.Gen.ReferenceIdeal
import Idealize.ShloMosaic.Lib.StableHlo.Run
import Idealize.ShloMosaic.PureOps.Ideal
import Idealize.ShloMosaic.Lib.ValueIdx
import Idealize.ShloMosaic.Lib.Pipeline.Value
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the iota, then the row lookup's twenty-three (the select of the function it calls
    sits seventh among them), each over the buffers of its call. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select ]

set_option maxRecDepth 1024 in
/-- @main is that straight line: the two functions' definitions unfolded at their calls, both sides are one chain
    of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term -/

/-- The index vector: 0, 1, …, 8191. -/
def idxV : IVec S8192 32 := iotaInDim S8192 32 0

/-- The wrapped index: the index plus 8192 where it is negative, the index itself elsewhere. -/
def wrapV : IVec S8192 32 :=
  select (cmpi .slt idxV (broadcastInDim S8192 ![] bcast_S_S8192 (constantI S_ 32 0#32)))
    (addi idxV (broadcastInDim S8192 ![] bcast_S_S8192 (constantI S_ 32 8192#32))) idxV

/-- The wrapped index as a column of start indices. -/
def colV : IVec S8192x1 32 := broadcastInDim S8192x1 ![0] bcast_S8192_S8192x1_0 wrapV

/-- The in-range mask of each row: 0 ≤ index ≤ 8191, and-reduced over the unit axis. -/
def maskV : IVec S8192 1 :=
  Host.reduce IntOp.andi
    (andi (cmpi .sge colV (broadcastInDim S8192x1 ![] bcast_S_S8192x1 (constantI S_ 32 0#32)))
      (cmpi .sle colV (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The result as a function of the table: the gathered rows where the mask holds, the fill elsewhere. -/
def res (t : FVec F S8192x1024 .f32) : FVec F S8192x1024 .f32 :=
  select (broadcastInDim S8192x1024 ![0] bcast_S8192_S8192x1024_0 maskV)
    (Host.gather gather_S8192x1024_S8192x1_S8192x1024_1_0_n_n_0_1_11024 t colV)
    (broadcastInDim S8192x1024 ![] bcast_S_S8192x1024 (constant S_ .f32 0x7FC00000#32))

attribute [local irreducible] Host.reduce Host.gather in
set_option maxRecDepth 8192 in
/-- The fold at the result buffer is the composed term: each operation's result at its own buffer is its function's
    value and at any other buffer what was there; the typed references' transports are the identity at these literal
    references; what is left is the composed term, unfolded. The reduction and the gather stay folded meanwhile (the
    equation never looks inside them). -/
theorem out_eq (V : Valuation τ sig (Elt F)) :
    after ops V (main_v1 : DevRef τ sig) = res (V (main_arg1 : DevRef τ sig)) := by
  after_results
  simp only [TRef.ofBuf, TRef.toBuf, cast_eq]
  unfold res maskV colV wrapV idxV
  rfl

/-- No operation writes the first argument. -/
theorem arg0_eq (V : Valuation τ sig (Elt F)) :
    after ops V (main_arg0 : DevRef τ sig) = V (main_arg0 : DevRef τ sig) := by
  after_results

/-- No operation writes the table. -/
theorem arg1_eq (V : Valuation τ sig (Elt F)) :
    after ops V (main_arg1 : DevRef τ sig) = V (main_arg1 : DevRef τ sig) := by
  after_results

/-- On every device, from any memory with zero counters: every weakly fair execution of @main terminates with the
    result at the composed term of the table and the arguments unchanged. -/
theorem run_res (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = res (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _),
      (h c main_arg0).trans (arg0_eq _),
      (h c main_arg1).trans (arg1_eq _)⟩)
    (run_main m ρ)

/-! ## The composed term is the table -/

open Idealize.ShloMosaic.ValueIdx

/-- A natural number below 8192, written as a 32-bit word and read back signed, is itself. -/
theorem toInt_ofNat_small (n : Nat) (h : n < 8192) : (BitVec.ofNat 32 n).toInt = n := by
  have e := BitVec.toInt_eq_toNat_cond (BitVec.ofNat 32 n)
  rw [BitVec.toNat_ofNat] at e
  omega

/-- The wrapped index of row `n` is `n`: the word of `n` is not negative, so the select keeps it. -/
theorem wrapV_apply (j : S8192.Idx) : wrapV j = BitVec.ofNat 32 (j 0).val := by
  have hj : (j 0).val < 8192 := (j 0).isLt
  show Scalar.select (IntOp.cmpi .slt (BitVec.ofNat 32 (j 0).val) 0#32)
    (IntOp.addi (BitVec.ofNat 32 (j 0).val) 8192#32) (BitVec.ofNat 32 (j 0).val) = _
  have h0 : IntOp.cmpi .slt (BitVec.ofNat 32 (j 0).val) 0#32 = 0#1 := by
    show BitVec.ofBool ((BitVec.ofNat 32 (j 0).val).slt 0#32) = 0#1
    have : (BitVec.ofNat 32 (j 0).val).slt 0#32 = false := by
      rw [Bool.eq_false_iff, Ne, BitVec.slt_iff_toInt_lt, toInt_ofNat_small _ hj]
      simp
    rw [this]; rfl
  rw [h0, select_zero]

/-- The column of start indices at row `n` holds the word of `n`. -/
theorem colV_apply (j : S8192x1.Idx) : colV j = BitVec.ofNat 32 (j 0).val := by
  have hj : (j 0).val < 8192 := (j 0).isLt
  have e : colV j = wrapV (ix1 (⟨(j 0).val, hj⟩ : Fin 8192)) :=
    broadcastInDim_apply (s := S8192) (t := S8192x1) ![0] bcast_S8192_S8192x1_0 wrapV j _ (by
      intro a
      match a with
      | ⟨0, _⟩ => rfl)
  rw [e, wrapV_apply]

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- Every row's index is in range: the mask is 1 everywhere. -/
theorem maskV_apply (j : S8192.Idx) : maskV j = 1#1 := by
  unfold maskV
  rw [Host.reduce_eq_foldl]
  refine foldl_andi_one _ _ fun i _ => ?_
  have hi : (i 0).val < 8192 := (i 0).isLt
  show IntOp.andi (IntOp.cmpi .sge (colV i) 0#32) (IntOp.cmpi .sle (colV i) 8191#32) = 1#1
  rw [colV_apply]
  have h1 : IntOp.cmpi .sge (BitVec.ofNat 32 (i 0).val) 0#32 = 1#1 := by
    show BitVec.ofBool ((0#32).sle (BitVec.ofNat 32 (i 0).val)) = 1#1
    have : (0#32).sle (BitVec.ofNat 32 (i 0).val) = true := by
      rw [BitVec.sle_iff_toInt_le, toInt_ofNat_small _ hi]; simp
    rw [this]; rfl
  have h2 : IntOp.cmpi .sle (BitVec.ofNat 32 (i 0).val) 8191#32 = 1#1 := by
    show BitVec.ofBool ((BitVec.ofNat 32 (i 0).val).sle 8191#32) = 1#1
    have : (BitVec.ofNat 32 (i 0).val).sle 8191#32 = true := by
      rw [BitVec.sle_iff_toInt_le, toInt_ofNat_small _ hi]
      have : (8191#32 : BitVec 32).toInt = 8191 := by decide
      rw [this]; omega
    rw [this]; rfl
  rw [h1, h2]; rfl

/-- The row gathered for output row `n` is row `n` of the table: on the row axis the start index is the word of
    `n` read signed, `n`, which the clamp into [0, 8191] keeps, and the axis is collapsed (no offset); on the column
    axis the start is 0 and the offset is the output's column. -/
theorem gather_apply (t : FVec F S8192x1024 .f32) (y : S8192x1024.Idx) :
    Host.gather gather_S8192x1024_S8192x1_S8192x1024_1_0_n_n_0_1_11024 t colV y = t y := by
  unfold Host.gather
  refine congrArg t (funext fun a => Fin.ext ?_)
  have hy : (y 0).val < 8192 := (y 0).isLt
  show gather_S8192x1024_S8192x1_S8192x1024_1_0_n_n_0_1_11024.start y colV a
      + gather_S8192x1024_S8192x1_S8192x1024_1_0_n_n_0_1_11024.batchCoord y a
      + gather_S8192x1024_S8192x1_S8192x1024_1_0_n_n_0_1_11024.offCoord y a = (y a).val
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin S8192x1024.rank) ∈ gather_S8192x1024_S8192x1_S8192x1024_1_0_n_n_0_1_11024.startIndexMap from
      List.mem_singleton.mpr rfl), colV_apply]
    show min (BitVec.ofNat 32 (y 0).val).toInt.toNat (8192 - 1) + 0 + 0 = (y 0).val
    rw [toInt_ofNat_small _ hy]
    omega
  | ⟨1, h1⟩ =>
    rw [show gather_S8192x1024_S8192x1_S8192x1024_1_0_n_n_0_1_11024.start y colV ⟨1, h1⟩ = 0 from rfl,
      show gather_S8192x1024_S8192x1_S8192x1024_1_0_n_n_0_1_11024.offCoord y ⟨1, h1⟩ = (y ⟨1, h1⟩).val from rfl]
    omega

/-- The composed term is the table: the mask is 1 at every row, so the select keeps the gathered element, which is the
    table's own. -/
theorem res_eq (t : FVec F S8192x1024 .f32) : res t = t := by
  funext y
  have hy : (y 0).val < 8192 := (y 0).isLt
  have hm : broadcastInDim S8192x1024 ![0] bcast_S8192_S8192x1024_0 maskV y = 1#1 := by
    rw [broadcastInDim_apply (s := S8192) (t := S8192x1024) ![0] bcast_S8192_S8192x1024_0 maskV y
      (ix1 (⟨(y 0).val, hy⟩ : Fin 8192)) (by
        intro a
        match a with
        | ⟨0, _⟩ => rfl)]
    exact maskV_apply _
  show Scalar.select (broadcastInDim S8192x1024 ![0] bcast_S8192_S8192x1024_0 maskV y)
    (Host.gather gather_S8192x1024_S8192x1_S8192x1024_1_0_n_n_0_1_11024 t colV y) _ = t y
  rw [hm, select_one, gather_apply]

/-- The reference's run at the ideal instance: on every device, from any memory with zero counters, every weakly fair
    execution of @main terminates with the result equal to the table and both arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v1) = m ((c.tc : Thread nD τ).loc main_arg1)
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c).1.trans (res_eq _), (h c).2.1, (h c).2.2⟩) (run_res m ρ)

end Cert.ReferenceIdeal.RefValue

end
-- ==== Proof.lean ====
/-
  The copy kernel against the row lookup at the positions 0, 1, …, 8191.

  The kernel: thirty-two vector subcores (two SparseCores of sixteen) each move their own 256 rows of the table to the
  same rows of the result, sixteen rows at a time through a ring of seven slots of their own vector memory, every slot
  and every transfer semaphore carrying one copy at a time. Every weakly fair execution of the device's thirty-five
  threads ends without a fault, the result holding the table's contents, the index array and the table as they were —
  at the word level and at the ideal instance alike: nothing is computed, so the two instances share one argument.

  The reference: the positions are an iota, so every index is in range, the mask of the lookup is all ones and row i of
  the gather is row i of the table: its result is the table too. The ideal pass rewrote nothing, so there is nothing
  to preserve; the two results are equal element by element because both are the table.
-/
import proofs.«213585_g19138374271248_cont_8to1_1565_24_alg».proof.Defs
import proofs.«213585_g19138374271248_cont_8to1_1565_24_alg».proof.Proof.Gen.Kernel
import proofs.«213585_g19138374271248_cont_8to1_1565_24_alg».proof.Proof.Gen.Kernel.Skeleton
import proofs.«213585_g19138374271248_cont_8to1_1565_24_alg».proof.Proof.Gen.KernelIdeal
import proofs.«213585_g19138374271248_cont_8to1_1565_24_alg».proof.Proof.Gen.KernelIdeal.Skeleton
import proofs.«213585_g19138374271248_cont_8to1_1565_24_alg».proof.Proof.Gen.ReferenceIdeal
import proofs.«213585_g19138374271248_cont_8to1_1565_24_alg».proof.Proof.Gen.Pre_input_domain
import proofs.«213585_g19138374271248_cont_8to1_1565_24_alg».proof.Proof.BitsLaunch
import proofs.«213585_g19138374271248_cont_8to1_1565_24_alg».proof.Proof.IdealLaunch
import proofs.«213585_g19138374271248_cont_8to1_1565_24_alg».proof.Proof.RefRun
import Idealize.ShloMosaic.Adequacy
import Idealize.ShloMosaic.Init

noncomputable section

namespace Cert.Proof

open Idealize.ShloMosaic Idealize.SL.Sem

/-- The word-level kernel runs to the end and leaves its two arguments unchanged: its run, the result's value dropped. -/
theorem frame_kernel : Cert.frame_Kernel := fun m ρ _ =>
  (θ_run Cert.Kernel.defs _ _).mono (fun _ h c => ⟨(h c).2.1, (h c).2.2⟩) (Cert.Proof.BitsCopy.run_main (F := Bits) m ρ)

/-- The same at the ideal instance. -/
theorem frame_kernelIdeal : Cert.frame_KernelIdeal := fun m ρ _ =>
  (θ_run Cert.KernelIdeal.defs _ _).mono (fun _ h c => ⟨(h c).2.1, (h c).2.2⟩) (Cert.Proof.IdealCopy.run_main (F := Ideal) m ρ)

/-- The reference runs to the end and leaves its two arguments unchanged: its run, the result's value dropped. -/
theorem frame_reference : Cert.frame_ReferenceIdeal := fun m ρ _ =>
  (θ_run Cert.ReferenceIdeal.defs _ _).mono (fun _ h c => (h c).2) (Cert.ReferenceIdeal.RefValue.run m ρ)

/-- From memories that agree on the arguments both programs end with the table in their result. -/
theorem algebraic : Cert.algebraic_KernelIdeal_ReferenceIdeal := fun m ρ m' ρ' _ hagree =>
  ⟨fun c => Cert.Proof.IdealCopy.tab m c, Cert.Proof.IdealCopy.run_main (F := Ideal) m ρ,
    (θ_run Cert.ReferenceIdeal.defs _ _).mono (fun _ h c => ⟨(h c).1.trans (hagree c).2, (h c).2⟩)
      (Cert.ReferenceIdeal.RefValue.run m' ρ')⟩

theorem claim : Cert.Claim :=
  ⟨Cert.Kernel.Gen.facts, Cert.KernelIdeal.Gen.facts, Cert.ReferenceIdeal.Gen.facts, Cert.Pre_input_domain.Gen.facts,
    frame_kernel, frame_kernelIdeal, frame_reference, trivial, algebraic⟩

end Cert.Proof

end
